-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S1x1 : Shape := ⟨2, ![1, 1]⟩
abbrev S1x1024x3 : Shape := ⟨3, ![1, 1024, 3]⟩
abbrev S1x3x4096 : Shape := ⟨3, ![1, 3, 4096]⟩
abbrev S1x4096 : Shape := ⟨2, ![1, 4096]⟩
abbrev S1024x3 : Shape := ⟨2, ![1024, 3]⟩
abbrev S3x4096 : Shape := ⟨2, ![3, 4096]⟩
abbrev S1024 : Shape := ⟨1, ![1024]⟩
abbrev S1024x1 : Shape := ⟨2, ![1024, 1]⟩
abbrev S4096 : Shape := ⟨1, ![4096]⟩
abbrev S1024x4096 : Shape := ⟨2, ![1024, 4096]⟩
abbrev S1 : Shape := ⟨1, ![1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1, .f32⟩
  | .local _ .vmem, ⟨5, _⟩ => ⟨S1x1, .f32⟩
  | .local _ .vmem, ⟨6, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let arg1 : BitVec 32 := BitVec.ofNat 32 (i 1).val
  let c0_i32_10 : BitVec 32 := 0#32
  let v24 : BitVec 1 := Scalar.cmpi .eq arg1 c0_i32_10
  let v25 : BitVec 1 := Scalar.andi v23 v24
  let v26 : BitVec 32 := Scalar.extui v25
  let c0_i32_11 : BitVec 32 := 0#32
  let v27 : BitVec 1 := Scalar.cmpi .ne v26 c0_i32_11
  v27

def k0_cond4 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_21 : BitVec 32 := 0#32
  let v42 : BitVec 1 := Scalar.cmpi .ne v41 c0_i32_21
  v42

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  transposes_S4x4096x3_S4x3x4096_0_2_1 : S4x4096x3.Transposes [0, 2, 1] S4x3x4096
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  reduces_S1024x3_S1024 : S1024x3.Reduces [1] S1024
  shapeCasts_S1024_S1024x1 : S1024.ShapeCasts S1024x1
  reduces_S3x4096_S4096 : S3x4096.Reduces [0] S4096
  shapeCasts_S4096_S1x4096 : S4096.ShapeCasts S1x4096
  bitsLt_bf16_f32 : FTy.bits .bf16 < FTy.bits .f32
  broadcasts_S1024x1_S1024x4096 : S1024x1.Broadcasts S1024x4096
  broadcasts_S1x4096_S1024x4096 : S1x4096.Broadcasts S1024x4096
  reduces_S1024x4096_S1024 : S1024x4096.Reduces [1] S1024
  reduces_S1024x4096_S4096 : S1024x4096.Reduces [0] S4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1024x1_S1 : S1024x1.Reduces [0] S1
  shapeCasts_S1_S1x1 : S1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S1x4096_S1 : S1x4096.Reduces [1] S1
  shapeCasts_S1x1_S_ : S1x1.ShapeCasts S_
  dot_S1024x3_S3x4096_S1024x4096_1_0_0_1_n_n_wf : DotDims.WF S1024x3 S3x4096 S1024x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x4096x3.size a
  hwx0_0 : ∀ i : grid0.Coords, EltTy.bits .f32 = 32 ∨ (Rect.block (s := S4x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S4x3x4096.size a
  hwx0_1 : ∀ i : grid0.Coords, EltTy.bits .f32 = 32 ∨ (Rect.block (s := S4x3x4096) S1x3x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x3_S3x4096_S1024x4096_1_0_0_1_n_n : DotDims S1024x3 S3x4096 S1024x4096 where
  lhsContracting := [1]
  rhsContracting := [0]
  lhsNonContracting := [0]
  rhsNonContracting := [1]
  lhsBatch := []
  rhsBatch := []
  wf := dot_S1024x3_S3x4096_S1024x4096_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond4 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S_, .f32⟩
  | .hbm, ⟨4, _⟩ => ⟨S4x4096, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.K.Conds.lean ====
/-
  The 4 × 4 sweep's bookkeeping, shared by the four runs of the body: which of the body's four conditionals hold at
  which grid point, in closed form over the point's number t (batch t / 4, block t % 4):
    the totals are zeroed            at t = 0;
    the column minimum is started    at the first block of a batch, t % 4 = 0;
    the column minimum is continued  at the other blocks, t % 4 ≠ 0;
    the column total is added to     at the last block of a batch, t % 4 = 3;
  where the second total's buffer is left untouched (neither zeroed nor added to), and the names of the buffers the
  body is handed at a point.
-/
import proofs.«152712_g89532888252875_cont_sun_m_849_7_alg».proof.Proof.Gen.Kernel.Frame
import proofs.«152712_g89532888252875_cont_sun_m_849_7_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four conditions -/

/-- The totals are zeroed here. -/
abbrev cond1 (i : grid0.Coords) : Prop := k0_cond1 i = 1#1
/-- The column minimum is started here (first block of a batch). -/
abbrev cond2 (i : grid0.Coords) : Prop := (Scalar.cmpi .ne (Scalar.extui (Scalar.cmpi .eq (BitVec.ofNat 32 (i 1).val) 0#32)) 0#32) = 1#1
/-- The column minimum is continued here (a later block of a batch). -/
abbrev cond3 (i : grid0.Coords) : Prop := (Scalar.cmpi .ne (Scalar.extui (Scalar.cmpi .sgt (BitVec.ofNat 32 (i 1).val) 0#32)) 0#32) = 1#1
/-- The column total is added to here (last block of a batch). -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ ¬ t.val % 4 = 0 :=
  (by decide +kernel : ∀ t : Fin grid0.N, cond3 (grid0.coords t) ↔ ¬ t.val % 4 = 0)
theorem hcond4 : ∀ t : Fin cfg0.N, cond4 (grid0.coords t) ↔ t.val % 4 = 3 :=
  (by decide +kernel : ∀ t : Fin grid0.N, cond4 (grid0.coords t) ↔ t.val % 4 = 3)

/-! ## Where the second total's buffer is left untouched -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
/-- The second total is stored where the totals are zeroed and where a batch ends, -/
theorem liveAt_3 : ∀ t : Fin cfg0.N, (t.val = 0 ∨ t.val % 4 = 3) → cfg0.idle 3 (grid0.coords t) = false := by decide +kernel
/-- and nowhere else; -/
theorem idleAt_3 : ∀ t : Fin cfg0.N, ¬ t.val = 0 → ¬ t.val % 4 = 3 → cfg0.idle 3 (grid0.coords t) = true := by decide +kernel
/-- it is written back at the last point only, so at no point where it is left untouched, -/
theorem noFlush_3 : ∀ t : Fin cfg0.N, ¬ t.val % 4 = 3 → (cfg0.win 3).flush t = false := by decide +kernel
/-- and neither total is written back before the last point. -/
theorem noFlush_2_lt : ∀ t : Fin cfg0.N, t.val < 15 → (cfg0.win 2).flush t = false := by decide +kernel
theorem noFlush_3_lt : ∀ t : Fin cfg0.N, t.val < 15 → (cfg0.win 3).flush t = false := by decide +kernel

/-! ## The buffers the body is handed at a point -/

abbrev ms_0 (t : Fin cfg0.N) : Memref sig .tc .vmem S1x1024x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x3x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1 .f32 := win0_3.stage (cfg0.slots t 3)
abbrev hs_3 (t : Fin cfg0.N) : (ms_3 t).IsWhole := hstage0_3 ((cfg0.slots t 3).cast nbuf0_3)
/-- The buffer of the running column minimum: the kernel's own, kept from point to point. -/
abbrev scM : Memref sig .tc .vmem S1x4096 .f32 := Memref.whole cc0_scratch0
/-- Views through which the totals' and the running minimum's contents are stated. -/
abbrev VO_2 : View sig .tc .vmem S1x1 .f32 := (Memref.whole cc0_stg2_0 : Memref sig .tc .vmem S1x1 .f32).view
abbrev VO_3 : View sig .tc .vmem S1x1 .f32 := (Memref.whole cc0_stg3_0 : Memref sig .tc .vmem S1x1 .f32).view
abbrev VS : View sig .tc .vmem S1x4096 .f32 := (scM).view

/-- What the region lends the body beside the windows: the running minimum's buffer at some contents, and the
    generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.K.RunA.lean ====
/-
  The body at the sweep's first point: both totals are zeroed, the first block's row minima are added to the first
  total, and the running column minimum is started at this block's column minima. Whatever the three buffers held
  before is overwritten; the run finds what each ends with.
-/
import proofs.«152712_g89532888252875_cont_sun_m_849_7_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/--   The body at the sweep's first point: both totals are zeroed, the first block's row minima are added to the first
  total, and the running column minimum is started at this block's column minima. Whatever the three buffers held
  before is overwritten; the run finds what each ends with. -/
noncomputable def kernelRun_A (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (hc1 : cond1 i) (hc2 : cond2 i) (hc3 : ¬cond3 i) (hc4 : ¬cond4 i)
    (x0 : Vec F S1x1024x3 .f32) (x1 : Vec F S1x3x4096 .f32) :
    Σ' (L2 : List (View.Piece (Elt F) S1x1 .f32)), Σ' (L3 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_tc_kernel i arg2 harg2 arg3 harg3 arg4 harg4 arg5 harg5 arg6 harg6) K } := by
  refine ⟨?_, ?_, ?_, fun E K => ?run⟩
  case run =>
    simp only [cc0__chamfer_tc_kernel_eq_skeleton]; unfold cc0__chamfer_tc_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%ds, %fs, -, HS⟩, Hk⟩
    obtain rfl := harg2.eq_unread hf0; obtain rfl := harg3.eq_unread hf1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Body

end
-- ==== Proof.K.RunB.lean ====
/-
  The body at a middle block of a batch (neither first nor last): the block's row minima are added to the first total,
  the running column minimum is lowered by this block's column minima, and the second total's buffer is handed back
  as it was found.
-/
import proofs.«152712_g89532888252875_cont_sun_m_849_7_alg».proof.Proof.K.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/--   The body at a middle block of a batch (neither first nor last): the block's row minima are added to the first total,
  the running column minimum is lowered by this block's column minima, and the second total's buffer is handed back
  as it was found. -/
noncomputable def kernelRun_B (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (hc1 : ¬cond1 i) (hc2 : ¬cond2 i) (hc3 : cond3 i) (hc4 : ¬cond4 i)
    (x0 : Vec F S1x1024x3 .f32) (x1 : Vec F S1x3x4096 .f32) (xo2 : Vec F S1x1 .f32) (xs : Vec F S1x4096 .f32) :
    Σ' (L2 : List (View.Piece (Elt F) S1x1 .f32)), { LS : List (View.Piece (Elt F) S1x4096 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_tc_kernel i arg2 harg2 arg3 harg3 arg4 harg4 arg5 harg5 arg6 harg6) K } := by
  refine ⟨?_, ?_, fun xi3 E K => ?run⟩
  case run =>
    simp only [cc0__chamfer_tc_kernel_eq_skeleton]; unfold cc0__chamfer_tc_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Body

end
-- ==== Proof.K.RunC.lean ====
/-
  The body at the last block of a batch: the block's row minima are added to the first total, the running column
  minimum is lowered by this block's column minima, and its sum over the columns is added to the second total.
-/
import proofs.«152712_g89532888252875_cont_sun_m_849_7_alg».proof.Proof.K.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/--   The body at the last block of a batch: the block's row minima are added to the first total, the running column
  minimum is lowered by this block's column minima, and its sum over the columns is added to the second total. -/
noncomputable def kernelRun_C (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (hc1 : ¬cond1 i) (hc2 : ¬cond2 i) (hc3 : cond3 i) (hc4 : cond4 i)
    (x0 : Vec F S1x1024x3 .f32) (x1 : Vec F S1x3x4096 .f32) (xo2 : Vec F S1x1 .f32) (xo3 : Vec F S1x1 .f32) (xs : Vec F S1x4096 .f32) :
    Σ' (L2 : List (View.Piece (Elt F) S1x1 .f32)), Σ' (L3 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_tc_kernel i arg2 harg2 arg3 harg3 arg4 harg4 arg5 harg5 arg6 harg6) K } := by
  refine ⟨?_, ?_, ?_, fun E K => ?run⟩
  case run =>
    simp only [cc0__chamfer_tc_kernel_eq_skeleton]; unfold cc0__chamfer_tc_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Body

end
-- ==== Proof.K.RunD.lean ====
/-
  The body at the first block of a later batch: the block's row minima are added to the first total, the running
  column minimum is started afresh at this block's column minima (whatever its buffer held), and the second total's
  buffer is handed back as it was found.
-/
import proofs.«152712_g89532888252875_cont_sun_m_849_7_alg».proof.Proof.K.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/--   The body at the first block of a later batch: the block's row minima are added to the first total, the running
  column minimum is started afresh at this block's column minima (whatever its buffer held), and the second total's
  buffer is handed back as it was found. -/
noncomputable def kernelRun_D (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (hc1 : ¬cond1 i) (hc2 : cond2 i) (hc3 : ¬cond3 i) (hc4 : ¬cond4 i)
    (x0 : Vec F S1x1024x3 .f32) (x1 : Vec F S1x3x4096 .f32) (xo2 : Vec F S1x1 .f32) :
    Σ' (L2 : List (View.Piece (Elt F) S1x1 .f32)), { LS : List (View.Piece (Elt F) S1x4096 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_tc_kernel i arg2 harg2 arg3 harg3 arg4 harg4 arg5 harg5 arg6 harg6) K } := by
  refine ⟨?_, ?_, fun xi3 E K => ?run⟩
  case run =>
    simp only [cc0__chamfer_tc_kernel_eq_skeleton]; unfold cc0__chamfer_tc_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Body

end
-- ==== Proof.K.Outs.lean ====
/-
  What the three carried buffers hold after each point of the sweep, by recursion on the point: the first total (every
  point adds its block's row minima to it), the second total (zeroed at the first point, added to at the end of each
  batch, otherwise untouched) and the running column minimum (started at a batch's first block, lowered at the others).
  Each step is the case of the body that the point's number selects, run on the point's blocks and on what the point
  before left.  Then the proof data of the pipeline over these contents, and what each buffer holds when the body is
  entered at a point: an input its block; a total what the point before left in it (looking back through the points
  that leave the second total untouched); at the first point anything.
-/
import proofs.«152712_g89532888252875_cont_sun_m_849_7_alg».proof.Proof.K.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents carried from point to point: the first total, the second total, the running column minimum. -/
abbrev Outs (F : FTy → Type) [FloatOps F] := Vec F S1x1 .f32 × Vec F S1x1 .f32 × Vec F S1x4096 .f32

/-! ## Which conditionals hold, from the point's number -/

theorem condsA (t : Fin cfg0.N) (ht : t.val = 0) :
    cond1 (grid0.coords t) ∧ cond2 (grid0.coords t) ∧ ¬cond3 (grid0.coords t) ∧ ¬cond4 (grid0.coords t) :=
  ⟨(hcond1 t).mpr ht, (hcond2 t).mpr (by omega), fun h => (hcond3 t).mp h (by omega), fun h => by have := (hcond4 t).mp h; omega⟩
theorem condsB (t : Fin cfg0.N) (h0 : ¬ t.val % 4 = 0) (h3 : ¬ t.val % 4 = 3) :
    ¬cond1 (grid0.coords t) ∧ ¬cond2 (grid0.coords t) ∧ cond3 (grid0.coords t) ∧ ¬cond4 (grid0.coords t) :=
  ⟨fun h => by have := (hcond1 t).mp h; omega, fun h => h0 ((hcond2 t).mp h), (hcond3 t).mpr h0, fun h => h3 ((hcond4 t).mp h)⟩
theorem condsC (t : Fin cfg0.N) (h3 : t.val % 4 = 3) :
    ¬cond1 (grid0.coords t) ∧ ¬cond2 (grid0.coords t) ∧ cond3 (grid0.coords t) ∧ cond4 (grid0.coords t) :=
  ⟨fun h => by have := (hcond1 t).mp h; omega, fun h => by have := (hcond2 t).mp h; omega, (hcond3 t).mpr (by omega), (hcond4 t).mpr h3⟩
theorem condsD (t : Fin cfg0.N) (hz : ¬ t.val = 0) (h0 : t.val % 4 = 0) :
    ¬cond1 (grid0.coords t) ∧ cond2 (grid0.coords t) ∧ ¬cond3 (grid0.coords t) ∧ ¬cond4 (grid0.coords t) :=
  ⟨fun h => hz ((hcond1 t).mp h), (hcond2 t).mpr h0, fun h => (hcond3 t).mp h h0, fun h => by have := (hcond4 t).mp h; omega⟩

/-! ## The four cases at a point, on the point's buffers and blocks -/

def runA (c : Dev nD) (t : Fin cfg0.N) (ht : t.val = 0) :=
  kernelRun_A (F := F) c (grid0.coords t) (ms_0 t) (hs_0 t) (ms_1 t) (hs_1 t) (ms_2 t) (hs_2 t) (ms_3 t) (hs_3 t) scM (Memref.isWhole_whole _) (condsA t ht).1 (condsA t ht).2.1 (condsA t ht).2.2.1 (condsA t ht).2.2.2 (iblk m c 0 t) (iblk m c 1 t)
def runB (c : Dev nD) (t : Fin cfg0.N) (h0 : ¬ t.val % 4 = 0) (h3 : ¬ t.val % 4 = 3) (xo2 : Vec F S1x1 .f32) (xs : Vec F S1x4096 .f32) :=
  kernelRun_B (F := F) c (grid0.coords t) (ms_0 t) (hs_0 t) (ms_1 t) (hs_1 t) (ms_2 t) (hs_2 t) (ms_3 t) (hs_3 t) scM (Memref.isWhole_whole _) (condsB t h0 h3).1 (condsB t h0 h3).2.1 (condsB t h0 h3).2.2.1 (condsB t h0 h3).2.2.2 (iblk m c 0 t) (iblk m c 1 t) xo2 xs
def runC (c : Dev nD) (t : Fin cfg0.N) (h3 : t.val % 4 = 3) (xo2 xo3 : Vec F S1x1 .f32) (xs : Vec F S1x4096 .f32) :=
  kernelRun_C (F := F) c (grid0.coords t) (ms_0 t) (hs_0 t) (ms_1 t) (hs_1 t) (ms_2 t) (hs_2 t) (ms_3 t) (hs_3 t) scM (Memref.isWhole_whole _) (condsC t h3).1 (condsC t h3).2.1 (condsC t h3).2.2.1 (condsC t h3).2.2.2 (iblk m c 0 t) (iblk m c 1 t) xo2 xo3 xs
def runD (c : Dev nD) (t : Fin cfg0.N) (hz : ¬ t.val = 0) (h0 : t.val % 4 = 0) (xo2 : Vec F S1x1 .f32) :=
  kernelRun_D (F := F) c (grid0.coords t) (ms_0 t) (hs_0 t) (ms_1 t) (hs_1 t) (ms_2 t) (hs_2 t) (ms_3 t) (hs_3 t) scM (Memref.isWhole_whole _) (condsD t hz h0).1 (condsD t hz h0).2.1 (condsD t hz h0).2.2.1 (condsD t hz h0).2.2.2 (iblk m c 0 t) (iblk m c 1 t) xo2

/-- After the first point. -/
def stepA (c : Dev nD) (t : Fin cfg0.N) (ht : t.val = 0) : Outs F :=
  (VO_2.read (Elt F) (VO_2.writes (Elt F) VO_2.junk (runA m c t ht).1), VO_3.read (Elt F) (VO_3.writes (Elt F) VO_3.junk (runA m c t ht).2.1), VS.read (Elt F) (VS.writes (Elt F) VS.junk (runA m c t ht).2.2.1))
/-- After a middle block, over what the point before left `p`: the second total is carried. -/
def stepB (c : Dev nD) (t : Fin cfg0.N) (h0 : ¬ t.val % 4 = 0) (h3 : ¬ t.val % 4 = 3) (p : Outs F) : Outs F :=
  (VO_2.read (Elt F) (VO_2.writes (Elt F) VO_2.junk (runB m c t h0 h3 p.1 p.2.2).1), p.2.1, VS.read (Elt F) (VS.writes (Elt F) VS.junk (runB m c t h0 h3 p.1 p.2.2).2.1))
/-- After a batch's last block. -/
def stepC (c : Dev nD) (t : Fin cfg0.N) (h3 : t.val % 4 = 3) (p : Outs F) : Outs F :=
  (VO_2.read (Elt F) (VO_2.writes (Elt F) VO_2.junk (runC m c t h3 p.1 p.2.1 p.2.2).1), VO_3.read (Elt F) (VO_3.writes (Elt F) VO_3.junk (runC m c t h3 p.1 p.2.1 p.2.2).2.1), VS.read (Elt F) (VS.writes (Elt F) VS.junk (runC m c t h3 p.1 p.2.1 p.2.2).2.2.1))
/-- After the first block of a later batch: the second total is carried. -/
def stepD (c : Dev nD) (t : Fin cfg0.N) (hz : ¬ t.val = 0) (h0 : t.val % 4 = 0) (p : Outs F) : Outs F :=
  (VO_2.read (Elt F) (VO_2.writes (Elt F) VO_2.junk (runD m c t hz h0 p.1).1), p.2.1, VS.read (Elt F) (VS.writes (Elt F) VS.junk (runD m c t hz h0 p.1).2.1))

/-! ## The stores of each case cover the buffers they claim -/

theorem coverA_2 (c : Dev nD) (t : Fin cfg0.N) (ht : t.val = 0) (y : S1x1.Idx) : ∃ pc ∈ (runA (F := F) m c t ht).1, y ∈ pc.1.set :=
  View.cover_of_tiledL (runA (F := F) m c t ht).1 S1x1.size (by unfold runA; sl_kernel_rfl) y
theorem coverA_3 (c : Dev nD) (t : Fin cfg0.N) (ht : t.val = 0) (y : S1x1.Idx) : ∃ pc ∈ (runA (F := F) m c t ht).2.1, y ∈ pc.1.set :=
  View.cover_of_tiledL (runA (F := F) m c t ht).2.1 S1x1.size (by unfold runA; sl_kernel_rfl) y
theorem coverA_S (c : Dev nD) (t : Fin cfg0.N) (ht : t.val = 0) (y : S1x4096.Idx) : ∃ pc ∈ (runA (F := F) m c t ht).2.2.1, y ∈ pc.1.set :=
  View.cover_of_tiledL (runA (F := F) m c t ht).2.2.1 S1x4096.size (by unfold runA; sl_kernel_rfl) y
theorem coverB_2 (c : Dev nD) (t : Fin cfg0.N) (h0 : ¬ t.val % 4 = 0) (h3 : ¬ t.val % 4 = 3) (xo2 : Vec F S1x1 .f32) (xs : Vec F S1x4096 .f32) (y : S1x1.Idx) :
    ∃ pc ∈ (runB m c t h0 h3 xo2 xs).1, y ∈ pc.1.set :=
  View.cover_of_tiledL (runB m c t h0 h3 xo2 xs).1 S1x1.size (by unfold runB; sl_kernel_rfl) y
theorem coverB_S (c : Dev nD) (t : Fin cfg0.N) (h0 : ¬ t.val % 4 = 0) (h3 : ¬ t.val % 4 = 3) (xo2 : Vec F S1x1 .f32) (xs : Vec F S1x4096 .f32) (y : S1x4096.Idx) :
    ∃ pc ∈ (runB m c t h0 h3 xo2 xs).2.1, y ∈ pc.1.set :=
  View.cover_of_tiledL (runB m c t h0 h3 xo2 xs).2.1 S1x4096.size (by unfold runB; sl_kernel_rfl) y
theorem coverC_2 (c : Dev nD) (t : Fin cfg0.N) (h3 : t.val % 4 = 3) (xo2 xo3 : Vec F S1x1 .f32) (xs : Vec F S1x4096 .f32) (y : S1x1.Idx) :
    ∃ pc ∈ (runC m c t h3 xo2 xo3 xs).1, y ∈ pc.1.set :=
  View.cover_of_tiledL (runC m c t h3 xo2 xo3 xs).1 S1x1.size (by unfold runC; sl_kernel_rfl) y
theorem coverC_3 (c : Dev nD) (t : Fin cfg0.N) (h3 : t.val % 4 = 3) (xo2 xo3 : Vec F S1x1 .f32) (xs : Vec F S1x4096 .f32) (y : S1x1.Idx) :
    ∃ pc ∈ (runC m c t h3 xo2 xo3 xs).2.1, y ∈ pc.1.set :=
  View.cover_of_tiledL (runC m c t h3 xo2 xo3 xs).2.1 S1x1.size (by unfold runC; sl_kernel_rfl) y
theorem coverC_S (c : Dev nD) (t : Fin cfg0.N) (h3 : t.val % 4 = 3) (xo2 xo3 : Vec F S1x1 .f32) (xs : Vec F S1x4096 .f32) (y : S1x4096.Idx) :
    ∃ pc ∈ (runC m c t h3 xo2 xo3 xs).2.2.1, y ∈ pc.1.set :=
  View.cover_of_tiledL (runC m c t h3 xo2 xo3 xs).2.2.1 S1x4096.size (by unfold runC; sl_kernel_rfl) y
theorem coverD_2 (c : Dev nD) (t : Fin cfg0.N) (hz : ¬ t.val = 0) (h0 : t.val % 4 = 0) (xo2 : Vec F S1x1 .f32) (y : S1x1.Idx) :
    ∃ pc ∈ (runD m c t hz h0 xo2).1, y ∈ pc.1.set :=
  View.cover_of_tiledL (runD m c t hz h0 xo2).1 S1x1.size (by unfold runD; sl_kernel_rfl) y
theorem coverD_S (c : Dev nD) (t : Fin cfg0.N) (hz : ¬ t.val = 0) (h0 : t.val % 4 = 0) (xo2 : Vec F S1x1 .f32) (y : S1x4096.Idx) :
    ∃ pc ∈ (runD m c t hz h0 xo2).2.1, y ∈ pc.1.set :=
  View.cover_of_tiledL (runD m c t hz h0 xo2).2.1 S1x4096.size (by unfold runD; sl_kernel_rfl) y

/-! ## What the carried buffers hold after each point -/

/-- The sweep: after point `n`, the case its number selects, over what point `n - 1` left. -/
def outsAt (c : Dev nD) : (n : ℕ) → n < cfg0.N → Outs F
  | 0, hn => stepA m c ⟨0, hn⟩ rfl
  | n + 1, hn =>
    if h0 : (n + 1) % 4 = 0 then stepD m c ⟨n + 1, hn⟩ (Nat.succ_ne_zero n) h0 (outsAt c n (Nat.lt_of_succ_lt hn))
    else if h3 : (n + 1) % 4 = 3 then stepC m c ⟨n + 1, hn⟩ h3 (outsAt c n (Nat.lt_of_succ_lt hn))
    else stepB m c ⟨n + 1, hn⟩ h0 h3 (outsAt c n (Nat.lt_of_succ_lt hn))

theorem outsAt_A (c : Dev nD) (t : Fin cfg0.N) (ht : t.val = 0) : outsAt m c t.val t.isLt = stepA m c t ht := by
  obtain ⟨n, hn⟩ := t
  cases n with
  | zero => rfl
  | succ n => exact absurd ht (Nat.succ_ne_zero n)
theorem outsAt_B (c : Dev nD) (t : Fin cfg0.N) (h0 : ¬ t.val % 4 = 0) (h3 : ¬ t.val % 4 = 3) :
    outsAt m c t.val t.isLt = stepB m c t h0 h3 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)
theorem outsAt_C (c : Dev nD) (t : Fin cfg0.N) (h3 : t.val % 4 = 3) :
    outsAt m c t.val t.isLt = stepC m c t h3 (outsAt m c (t.val - 1) (Nat.lt_of_le_of_lt (Nat.sub_le _ _) t.isLt)) := by
  obtain ⟨n, hn⟩ := t
  cases n with
  | zero => exact absurd h3 (by dsimp only; omega)
  | succ n => exact (dif_neg (by dsimp only at h3; omega)).trans ((dif_pos h3).trans rfl)
theorem outsAt_D (c : Dev nD) (t : Fin cfg0.N) (hz : ¬ t.val = 0) (h0 : t.val % 4 = 0) :
    outsAt m c t.val t.isLt = stepD m c t hz h0 (outsAt m c (t.val - 1) (Nat.lt_of_le_of_lt (Nat.sub_le _ _) t.isLt)) := by
  obtain ⟨n, hn⟩ := t
  cases n with
  | zero => exact absurd rfl hz
  | succ n => exact (dif_pos h0).trans rfl

/-- At a point that neither zeroes the second total nor ends a batch, the second total is what the point before left. -/
theorem outsAt_carry (c : Dev nD) (t : Fin cfg0.N) (hz : ¬ t.val = 0) (h3 : ¬ t.val % 4 = 3) :
    (outsAt m c t.val t.isLt).2.1 = (outsAt m c (t.val - 1) (Nat.lt_of_le_of_lt (Nat.sub_le _ _) t.isLt)).2.1 := by
  by_cases h0 : t.val % 4 = 0
  · rw [outsAt_D m c t hz h0]; unfold stepD; dsimp only
  · rw [outsAt_B m c t h0 h3]; unfold stepB; dsimp only

/-! ## The region's invariant -/

/-- Before the first point the running minimum's buffer holds anything; before point `n + 1` what point `n` left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

/-! ## What each buffer holds when the body is entered -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- At the first point the totals' buffers hold anything. -/
theorem before_2_zero (c : Dev nD) (t : Fin cfg0.N) (ht : t.val = 0) (d) : (dats m 0 c).before 2 t d = d :=
  Dat.before_out_reset _ 2 rfl t (.inl ht) d
theorem before_3_zero (c : Dev nD) (t : Fin cfg0.N) (ht : t.val = 0) (d) : (dats m 0 c).before 3 t d = d :=
  Dat.before_out_reset _ 3 rfl t (.inl ht) d
/-- Later the first total's buffer holds what the point before left: it is stored at every point and written back only
    after the last. -/
theorem before_2_pos (c : Dev nD) (t : Fin cfg0.N) (ht : t.val ≠ 0) (d) :
    (dats m 0 c).before 2 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 2 rfl t ht (noFlush_2_lt _ (by dsimp only; omega)) (fun _ => rfl) (fun _ _ => rfl)]
  dsimp only [dats]
/-- And so does the second total's, looking back through the points that leave it untouched. -/
theorem before_3_pos (c : Dev nD) : ∀ (n : ℕ) (hn : n < cfg0.N), n ≠ 0 → ∀ d,
    (dats m 0 c).before 3 ⟨n, hn⟩ d = (outsAt m c (n - 1) (Nat.lt_of_le_of_lt (Nat.sub_le _ _) hn)).2.1 := by
  intro n
  induction n using Nat.strong_induction_on with
  | _ n ih =>
    intro hn hz d
    have hN : n < 16 := lt_of_lt_of_eq hn (show cfg0.N = 16 from N_0)
    rw [Dat.before_of_pos _ 3 ⟨n, hn⟩ hz ((cfg0.win 3).fetch_out rfl _) d,
      noFlush_3_lt ⟨n - 1, Nat.lt_of_le_of_lt (Nat.sub_le _ _) hn⟩ (by dsimp only; omega), if_neg Bool.false_ne_true]
    unfold Dat.left
    by_cases hlive : n - 1 = 0 ∨ (n - 1) % 4 = 3
    · rw [liveAt_3 ⟨n - 1, Nat.lt_of_le_of_lt (Nat.sub_le _ _) hn⟩ hlive]
      dsimp only
      unfold Dat.kept
      rw [Pipeline.fill_of_clip_none 3 _ (fun _ => rfl) d ((dats m 0 c).after 3 _), Window.fill_cut]
      dsimp only [dats]
    · have h1 : ¬ (n - 1 = 0) := fun h => hlive (.inl h)
      have h2 : ¬ ((n - 1) % 4 = 3) := fun h => hlive (.inr h)
      rw [idleAt_3 ⟨n - 1, Nat.lt_of_le_of_lt (Nat.sub_le _ _) hn⟩ h1 h2]
      dsimp only
      rw [ih (n - 1) (by omega) (Nat.lt_of_le_of_lt (Nat.sub_le _ _) hn) h1 d]
      exact (outsAt_carry m c ⟨n - 1, Nat.lt_of_le_of_lt (Nat.sub_le _ _) hn⟩ h1 h2).symm

end Cert.Kernel.Body

end
-- ==== Proof.K.Sound.lean ====
/-
  The body keeps its contract at every point of the sweep: handed the two input blocks, the two totals' buffers at what
  the point before left (anything at the first point) and the running minimum's buffer likewise, it runs without fault and
  hands everything back at the next entry of the recursion. By cases on the point's number (first point; first block of a
  later batch; last block of a batch; a middle block), each the corresponding run. Then the whole program's run and the
  frame: every execution ends, and the two argument arrays are as they were.
-/
import proofs.«152712_g89532888252875_cont_sun_m_849_7_alg».proof.Proof.K.Outs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A variant of the look-back for the second total stated at a point. -/
theorem before_3_pos' (c : Dev nD) (t : Fin cfg0.N) (ht : t.val ≠ 0) (d) :
    (dats m 0 c).before 3 t d = (outsAt m c (t.val - 1) (Nat.lt_of_le_of_lt (Nat.sub_le _ _) t.isLt)).2.1 :=
  before_3_pos m c t.val t.isLt ht d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
      unfold Dat.leavesExact; rw [liveAt_0 t], after_0]
  rw [show (dats m 0 c).leavesExact 1 t = owns (c : Thread nD τ) (ms_1 t) fullShare ((dats m 0 c).after 1 t) from by
      unfold Dat.leavesExact; rw [liveAt_1 t], after_1]
  rw [show (dats m 0 c).leavesExact 2 t = owns (c : Thread nD τ) (ms_2 t) fullShare ((dats m 0 c).after 2 t) from by
      unfold Dat.leavesExact; rw [liveAt_2 t], after_2]
  have hN : t.val < 16 := lt_of_lt_of_eq t.isLt (show cfg0.N = 16 from N_0)
  by_cases hz : t.val = 0
  · -- the first point
    rw [show (dats m 0 c).leavesExact 3 t = owns (c : Thread nD τ) (ms_3 t) fullShare ((dats m 0 c).after 3 t) from by
      unfold Dat.leavesExact; rw [liveAt_3 t (.inl hz)], after_3]
    rw [outsAt_A m c t hz]
    unfold stepA; dsimp only
    simp only [before_2_zero m c t hz, before_3_zero m c t hz]
    rw [PhiS_castSucc m c t, PhiS_zero m c _ _ hz, PhiA_eq]
    iintro ⟨⟨HS, Hg⟩, Ho, ⟨%d0, H0⟩, ⟨%d1, H1⟩, H2, H3⟩
    iapply ((runA m c t hz).2.2.2 Set.univ _)
    isplitl [H0]; · iexact H0
    isplitl [H1]; · iexact H1
    isplitl [H2]; · iexact H2
    isplitl [H3]; · iexact H3
    isplitl [HS]; · iexact HS
    iintro ⟨H0, H1, ⟨%e2, H2⟩, ⟨%e3, H3⟩, ⟨%es, HS⟩⟩
    isplitl [HS Hg]
    · isplitl [HS]
      · unfold owns; iexists _; isplitr
        swap; · iexact HS
        ipureintro; exact View.read_writes_of_cover _ _ _ _ _ (coverA_S m c t hz)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 m c t hz)
    unfold owns; iexists _; isplitr
    swap; · iexact H3
    ipureintro; exact View.read_writes_of_cover _ _ _ _ _ (coverA_3 m c t hz)
  · rw [PhiS_castSucc m c t, PhiS_pos m c _ _ hz]
    simp only [before_2_pos m c t hz, before_3_pos' m c t hz]
    by_cases h0 : t.val % 4 = 0
    · -- the first block of a later batch
      rw [Dat.leavesExact_idle (dats m 0 c) 3 t (idleAt_3 t hz (by omega)) (noFlush_3 t (by omega))]
      simp only [before_3_pos' m c t hz]
      rw [outsAt_D m c t hz h0]
      unfold stepD; dsimp only
      iintro ⟨⟨HS, Hg⟩, Ho, ⟨%d0, H0⟩, ⟨%d1, H1⟩, ⟨%d2, H2⟩, ⟨%d3, H3⟩⟩
      iapply ((runD m c t hz h0 _).2.2 _ Set.univ _)
      isplitl [H0]; · iexact H0
      isplitl [H1]; · iexact H1
      isplitl [H2]; · iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (coverD_S m c t hz h0 _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverD_2 m c t hz h0 _)
      iexists d3; iexact H3
    · by_cases h3 : t.val % 4 = 3
      · -- the last block of a batch
        rw [show (dats m 0 c).leavesExact 3 t = owns (c : Thread nD τ) (ms_3 t) fullShare ((dats m 0 c).after 3 t) from by
          unfold Dat.leavesExact; rw [liveAt_3 t (.inr h3)], after_3]
        rw [outsAt_C m c t h3]
        unfold stepC; dsimp only
        iintro ⟨⟨HS, Hg⟩, Ho, ⟨%d0, H0⟩, ⟨%d1, H1⟩, ⟨%d2, H2⟩, ⟨%d3, H3⟩⟩
        iapply ((runC m c t h3 _ _ _).2.2.2 Set.univ _)
        isplitl [H0]; · iexact H0
        isplitl [H1]; · iexact H1
        isplitl [H2]; · iexact H2
        isplitl [H3]; · iexact H3
        isplitl [HS]; · iexact HS
        iintro ⟨H0, H1, ⟨%e2, H2⟩, ⟨%e3, H3⟩, ⟨%es, HS⟩⟩
        isplitl [HS Hg]
        · isplitl [HS]
          · unfold owns; iexists _; isplitr
            swap; · iexact HS
            ipureintro; exact View.read_writes_of_cover _ _ _ _ _ (coverC_S m c t h3 _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (coverC_2 m c t h3 _ _ _)
        unfold owns; iexists _; isplitr
        swap; · iexact H3
        ipureintro; exact View.read_writes_of_cover _ _ _ _ _ (coverC_3 m c t h3 _ _ _)
      · -- a middle block
        rw [Dat.leavesExact_idle (dats m 0 c) 3 t (idleAt_3 t hz h3) (noFlush_3 t h3)]
        simp only [before_3_pos' m c t hz]
        rw [outsAt_B m c t h0 h3]
        unfold stepB; dsimp only
        iintro ⟨⟨HS, Hg⟩, Ho, ⟨%d0, H0⟩, ⟨%d1, H1⟩, ⟨%d2, H2⟩, ⟨%d3, H3⟩⟩
        iapply ((runB m c t h0 h3 _ _).2.2 _ Set.univ _)
        isplitl [H0]; · iexact H0
        isplitl [H1]; · iexact H1
        isplitl [H2]; · iexact H2
        isplitl [H3]; · iexact H3
        isplitl [HS]; · iexact HS
        iintro ⟨H0, H1, ⟨%e2, H2⟩, H3, ⟨%es, HS⟩⟩
        isplitl [HS Hg]
        · isplitl [HS]
          · unfold owns; iexists _; isplitr
            swap; · iexact HS
            ipureintro; exact View.read_writes_of_cover _ _ _ _ _ (coverB_S m c t h0 h3 _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (coverB_2 m c t h0 h3 _ _)
        iexists d3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the running minimum's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- Every weakly fair execution of the program terminates, and every final state has each array of the pipeline at what
    the proof data says was written back, every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KI.Conds.lean ====
/-
  The 4 × 4 sweep's bookkeeping, shared by the four runs of the body: which of the body's four conditionals hold at
  which grid point, in closed form over the point's number t (batch t / 4, block t % 4):
    the totals are zeroed            at t = 0;
    the column minimum is started    at the first block of a batch, t % 4 = 0;
    the column minimum is continued  at the other blocks, t % 4 ≠ 0;
    the column total is added to     at the last block of a batch, t % 4 = 3;
  where the second total's buffer is left untouched (neither zeroed nor added to), and the names of the buffers the
  body is handed at a point.
-/
import proofs.«152712_g89532888252875_cont_sun_m_849_7_alg».proof.Proof.Gen.KernelIdeal.Frame
import proofs.«152712_g89532888252875_cont_sun_m_849_7_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four conditions -/

/-- The totals are zeroed here. -/
abbrev cond1 (i : grid0.Coords) : Prop := k0_cond1 i = 1#1
/-- The column minimum is started here (first block of a batch). -/
abbrev cond2 (i : grid0.Coords) : Prop := (Scalar.cmpi .ne (Scalar.extui (Scalar.cmpi .eq (BitVec.ofNat 32 (i 1).val) 0#32)) 0#32) = 1#1
/-- The column minimum is continued here (a later block of a batch). -/
abbrev cond3 (i : grid0.Coords) : Prop := (Scalar.cmpi .ne (Scalar.extui (Scalar.cmpi .sgt (BitVec.ofNat 32 (i 1).val) 0#32)) 0#32) = 1#1
/-- The column total is added to here (last block of a batch). -/
abbrev cond4 (i : grid0.Coords) : Prop := k0_cond4 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val % 4 = 0 :=
  (by decide +kernel : ∀ t : Fin grid0.N, cond2 (grid0.coords t) ↔ t.val % 4 = 0)
theorem hcond3 : ∀ t : Fin cfg0.N, cond3 (grid0.coords t) ↔ ¬ t.val % 4 = 0 :=
  (by decide +kernel : ∀ t : Fin grid0.N, cond3 (grid0.coords t) ↔ ¬ t.val % 4 = 0)
theorem hcond4 : ∀ t : Fin cfg0.N, cond4 (grid0.coords t) ↔ t.val % 4 = 3 :=
  (by decide +kernel : ∀ t : Fin grid0.N, cond4 (grid0.coords t) ↔ t.val % 4 = 3)

/-! ## Where the second total's buffer is left untouched -/

theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
/-- The second total is stored where the totals are zeroed and where a batch ends, -/
theorem liveAt_3 : ∀ t : Fin cfg0.N, (t.val = 0 ∨ t.val % 4 = 3) → cfg0.idle 3 (grid0.coords t) = false := by decide +kernel
/-- and nowhere else; -/
theorem idleAt_3 : ∀ t : Fin cfg0.N, ¬ t.val = 0 → ¬ t.val % 4 = 3 → cfg0.idle 3 (grid0.coords t) = true := by decide +kernel
/-- it is written back at the last point only, so at no point where it is left untouched, -/
theorem noFlush_3 : ∀ t : Fin cfg0.N, ¬ t.val % 4 = 3 → (cfg0.win 3).flush t = false := by decide +kernel
/-- and neither total is written back before the last point. -/
theorem noFlush_2_lt : ∀ t : Fin cfg0.N, t.val < 15 → (cfg0.win 2).flush t = false := by decide +kernel
theorem noFlush_3_lt : ∀ t : Fin cfg0.N, t.val < 15 → (cfg0.win 3).flush t = false := by decide +kernel

/-! ## The buffers the body is handed at a point -/

abbrev ms_0 (t : Fin cfg0.N) : Memref sig .tc .vmem S1x1024x3 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x3x4096 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1 .f32 := win0_3.stage (cfg0.slots t 3)
abbrev hs_3 (t : Fin cfg0.N) : (ms_3 t).IsWhole := hstage0_3 ((cfg0.slots t 3).cast nbuf0_3)
/-- The buffer of the running column minimum: the kernel's own, kept from point to point. -/
abbrev scM : Memref sig .tc .vmem S1x4096 .f32 := Memref.whole cc0_scratch0
/-- Views through which the totals' and the running minimum's contents are stated. -/
abbrev VO_2 : View sig .tc .vmem S1x1 .f32 := (Memref.whole cc0_stg2_0 : Memref sig .tc .vmem S1x1 .f32).view
abbrev VO_3 : View sig .tc .vmem S1x1 .f32 := (Memref.whole cc0_stg3_0 : Memref sig .tc .vmem S1x1 .f32).view
abbrev VS : View sig .tc .vmem S1x4096 .f32 := (scM).view

/-- What the region lends the body beside the windows: the running minimum's buffer at some contents, and the
    generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.KI.RunA.lean ====
/-
  The body at the sweep's first point: both totals are zeroed, the first block's row minima are added to the first
  total, and the running column minimum is started at this block's column minima. Whatever the three buffers held
  before is overwritten; the run finds what each ends with.
-/
import proofs.«152712_g89532888252875_cont_sun_m_849_7_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/--   The body at the sweep's first point: both totals are zeroed, the first block's row minima are added to the first
  total, and the running column minimum is started at this block's column minima. Whatever the three buffers held
  before is overwritten; the run finds what each ends with. -/
noncomputable def kernelRun_A (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (hc1 : cond1 i) (hc2 : cond2 i) (hc3 : ¬cond3 i) (hc4 : ¬cond4 i)
    (x0 : Vec F S1x1024x3 .f32) (x1 : Vec F S1x3x4096 .f32) :
    Σ' (L2 : List (View.Piece (Elt F) S1x1 .f32)), Σ' (L3 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_tc_kernel i arg2 harg2 arg3 harg3 arg4 harg4 arg5 harg5 arg6 harg6) K } := by
  refine ⟨?_, ?_, ?_, fun E K => ?run⟩
  case run =>
    simp only [cc0__chamfer_tc_kernel_eq_skeleton]; unfold cc0__chamfer_tc_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%ds, %fs, -, HS⟩, Hk⟩
    obtain rfl := harg2.eq_unread hf0; obtain rfl := harg3.eq_unread hf1
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Body

end
-- ==== Proof.KI.RunB.lean ====
/-
  The body at a middle block of a batch (neither first nor last): the block's row minima are added to the first total,
  the running column minimum is lowered by this block's column minima, and the second total's buffer is handed back
  as it was found.
-/
import proofs.«152712_g89532888252875_cont_sun_m_849_7_alg».proof.Proof.KI.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/--   The body at a middle block of a batch (neither first nor last): the block's row minima are added to the first total,
  the running column minimum is lowered by this block's column minima, and the second total's buffer is handed back
  as it was found. -/
noncomputable def kernelRun_B (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (hc1 : ¬cond1 i) (hc2 : ¬cond2 i) (hc3 : cond3 i) (hc4 : ¬cond4 i)
    (x0 : Vec F S1x1024x3 .f32) (x1 : Vec F S1x3x4096 .f32) (xo2 : Vec F S1x1 .f32) (xs : Vec F S1x4096 .f32) :
    Σ' (L2 : List (View.Piece (Elt F) S1x1 .f32)), { LS : List (View.Piece (Elt F) S1x4096 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_tc_kernel i arg2 harg2 arg3 harg3 arg4 harg4 arg5 harg5 arg6 harg6) K } := by
  refine ⟨?_, ?_, fun xi3 E K => ?run⟩
  case run =>
    simp only [cc0__chamfer_tc_kernel_eq_skeleton]; unfold cc0__chamfer_tc_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Body

end
-- ==== Proof.KI.RunC.lean ====
/-
  The body at the last block of a batch: the block's row minima are added to the first total, the running column
  minimum is lowered by this block's column minima, and its sum over the columns is added to the second total.
-/
import proofs.«152712_g89532888252875_cont_sun_m_849_7_alg».proof.Proof.KI.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/--   The body at the last block of a batch: the block's row minima are added to the first total, the running column
  minimum is lowered by this block's column minima, and its sum over the columns is added to the second total. -/
noncomputable def kernelRun_C (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (hc1 : ¬cond1 i) (hc2 : ¬cond2 i) (hc3 : cond3 i) (hc4 : cond4 i)
    (x0 : Vec F S1x1024x3 .f32) (x1 : Vec F S1x3x4096 .f32) (xo2 : Vec F S1x1 .f32) (xo3 : Vec F S1x1 .f32) (xs : Vec F S1x4096 .f32) :
    Σ' (L2 : List (View.Piece (Elt F) S1x1 .f32)), Σ' (L3 : List (View.Piece (Elt F) S1x1 .f32)), { LS : List (View.Piece (Elt F) S1x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_tc_kernel i arg2 harg2 arg3 harg3 arg4 harg4 arg5 harg5 arg6 harg6) K } := by
  refine ⟨?_, ?_, ?_, fun E K => ?run⟩
  case run =>
    simp only [cc0__chamfer_tc_kernel_eq_skeleton]; unfold cc0__chamfer_tc_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Body

end
-- ==== Proof.KI.RunD.lean ====
/-
  The body at the first block of a later batch: the block's row minima are added to the first total, the running
  column minimum is started afresh at this block's column minima (whatever its buffer held), and the second total's
  buffer is handed back as it was found.
-/
import proofs.«152712_g89532888252875_cont_sun_m_849_7_alg».proof.Proof.KI.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/--   The body at the first block of a later batch: the block's row minima are added to the first total, the running
  column minimum is started afresh at this block's column minima (whatever its buffer held), and the second total's
  buffer is handed back as it was found. -/
noncomputable def kernelRun_D (c : Dev nD) (i : grid0.Coords) (arg2 : Memref sig .tc .vmem S1x1024x3 .f32) (harg2 : arg2.IsWhole) (arg3 : Memref sig .tc .vmem S1x3x4096 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x4096 .f32) (harg6 : arg6.IsWhole) (hc1 : ¬cond1 i) (hc2 : cond2 i) (hc3 : ¬cond3 i) (hc4 : ¬cond4 i)
    (x0 : Vec F S1x1024x3 .f32) (x1 : Vec F S1x3x4096 .f32) (xo2 : Vec F S1x1 .f32) :
    Σ' (L2 : List (View.Piece (Elt F) S1x1 .f32)), { LS : List (View.Piece (Elt F) S1x4096 .f32) //
      ∀ (xi3 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__chamfer_tc_kernel i arg2 harg2 arg3 harg3 arg4 harg4 arg5 harg5 arg6 harg6) K } := by
  refine ⟨?_, ?_, fun xi3 E K => ?run⟩
  case run =>
    simp only [cc0__chamfer_tc_kernel_eq_skeleton]; unfold cc0__chamfer_tc_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Body

end
-- ==== Proof.KI.Outs.lean ====
/-
  What the three carried buffers hold after each point of the sweep, by recursion on the point: the first total (every
  point adds its block's row minima to it), the second total (zeroed at the first point, added to at the end of each
  batch, otherwise untouched) and the running column minimum (started at a batch's first block, lowered at the others).
  Each step is the case of the body that the point's number selects, run on the point's blocks and on what the point
  before left.  Then the proof data of the pipeline over these contents, and what each buffer holds when the body is
  entered at a point: an input its block; a total what the point before left in it (looking back through the points
  that leave the second total untouched); at the first point anything.
-/
import proofs.«152712_g89532888252875_cont_sun_m_849_7_alg».proof.Proof.KI.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents carried from point to point: the first total, the second total, the running column minimum. -/
abbrev Outs (F : FTy → Type) [FloatOps F] := Vec F S1x1 .f32 × Vec F S1x1 .f32 × Vec F S1x4096 .f32

/-! ## Which conditionals hold, from the point's number -/

theorem condsA (t : Fin cfg0.N) (ht : t.val = 0) :
    cond1 (grid0.coords t) ∧ cond2 (grid0.coords t) ∧ ¬cond3 (grid0.coords t) ∧ ¬cond4 (grid0.coords t) :=
  ⟨(hcond1 t).mpr ht, (hcond2 t).mpr (by omega), fun h => (hcond3 t).mp h (by omega), fun h => by have := (hcond4 t).mp h; omega⟩
theorem condsB (t : Fin cfg0.N) (h0 : ¬ t.val % 4 = 0) (h3 : ¬ t.val % 4 = 3) :
    ¬cond1 (grid0.coords t) ∧ ¬cond2 (grid0.coords t) ∧ cond3 (grid0.coords t) ∧ ¬cond4 (grid0.coords t) :=
  ⟨fun h => by have := (hcond1 t).mp h; omega, fun h => h0 ((hcond2 t).mp h), (hcond3 t).mpr h0, fun h => h3 ((hcond4 t).mp h)⟩
theorem condsC (t : Fin cfg0.N) (h3 : t.val % 4 = 3) :
    ¬cond1 (grid0.coords t) ∧ ¬cond2 (grid0.coords t) ∧ cond3 (grid0.coords t) ∧ cond4 (grid0.coords t) :=
  ⟨fun h => by have := (hcond1 t).mp h; omega, fun h => by have := (hcond2 t).mp h; omega, (hcond3 t).mpr (by omega), (hcond4 t).mpr h3⟩
theorem condsD (t : Fin cfg0.N) (hz : ¬ t.val = 0) (h0 : t.val % 4 = 0) :
    ¬cond1 (grid0.coords t) ∧ cond2 (grid0.coords t) ∧ ¬cond3 (grid0.coords t) ∧ ¬cond4 (grid0.coords t) :=
  ⟨fun h => hz ((hcond1 t).mp h), (hcond2 t).mpr h0, fun h => (hcond3 t).mp h h0, fun h => by have := (hcond4 t).mp h; omega⟩

/-! ## The four cases at a point, on the point's buffers and blocks -/

def runA (c : Dev nD) (t : Fin cfg0.N) (ht : t.val = 0) :=
  kernelRun_A (F := F) c (grid0.coords t) (ms_0 t) (hs_0 t) (ms_1 t) (hs_1 t) (ms_2 t) (hs_2 t) (ms_3 t) (hs_3 t) scM (Memref.isWhole_whole _) (condsA t ht).1 (condsA t ht).2.1 (condsA t ht).2.2.1 (condsA t ht).2.2.2 (iblk m c 0 t) (iblk m c 1 t)
def runB (c : Dev nD) (t : Fin cfg0.N) (h0 : ¬ t.val % 4 = 0) (h3 : ¬ t.val % 4 = 3) (xo2 : Vec F S1x1 .f32) (xs : Vec F S1x4096 .f32) :=
  kernelRun_B (F := F) c (grid0.coords t) (ms_0 t) (hs_0 t) (ms_1 t) (hs_1 t) (ms_2 t) (hs_2 t) (ms_3 t) (hs_3 t) scM (Memref.isWhole_whole _) (condsB t h0 h3).1 (condsB t h0 h3).2.1 (condsB t h0 h3).2.2.1 (condsB t h0 h3).2.2.2 (iblk m c 0 t) (iblk m c 1 t) xo2 xs
def runC (c : Dev nD) (t : Fin cfg0.N) (h3 : t.val % 4 = 3) (xo2 xo3 : Vec F S1x1 .f32) (xs : Vec F S1x4096 .f32) :=
  kernelRun_C (F := F) c (grid0.coords t) (ms_0 t) (hs_0 t) (ms_1 t) (hs_1 t) (ms_2 t) (hs_2 t) (ms_3 t) (hs_3 t) scM (Memref.isWhole_whole _) (condsC t h3).1 (condsC t h3).2.1 (condsC t h3).2.2.1 (condsC t h3).2.2.2 (iblk m c 0 t) (iblk m c 1 t) xo2 xo3 xs
def runD (c : Dev nD) (t : Fin cfg0.N) (hz : ¬ t.val = 0) (h0 : t.val % 4 = 0) (xo2 : Vec F S1x1 .f32) :=
  kernelRun_D (F := F) c (grid0.coords t) (ms_0 t) (hs_0 t) (ms_1 t) (hs_1 t) (ms_2 t) (hs_2 t) (ms_3 t) (hs_3 t) scM (Memref.isWhole_whole _) (condsD t hz h0).1 (condsD t hz h0).2.1 (condsD t hz h0).2.2.1 (condsD t hz h0).2.2.2 (iblk m c 0 t) (iblk m c 1 t) xo2

/-- After the first point. -/
def stepA (c : Dev nD) (t : Fin cfg0.N) (ht : t.val = 0) : Outs F :=
  (VO_2.read (Elt F) (VO_2.writes (Elt F) VO_2.junk (runA m c t ht).1), VO_3.read (Elt F) (VO_3.writes (Elt F) VO_3.junk (runA m c t ht).2.1), VS.read (Elt F) (VS.writes (Elt F) VS.junk (runA m c t ht).2.2.1))
/-- After a middle block, over what the point before left `p`: the second total is carried. -/
def stepB (c : Dev nD) (t : Fin cfg0.N) (h0 : ¬ t.val % 4 = 0) (h3 : ¬ t.val % 4 = 3) (p : Outs F) : Outs F :=
  (VO_2.read (Elt F) (VO_2.writes (Elt F) VO_2.junk (runB m c t h0 h3 p.1 p.2.2).1), p.2.1, VS.read (Elt F) (VS.writes (Elt F) VS.junk (runB m c t h0 h3 p.1 p.2.2).2.1))
/-- After a batch's last block. -/
def stepC (c : Dev nD) (t : Fin cfg0.N) (h3 : t.val % 4 = 3) (p : Outs F) : Outs F :=
  (VO_2.read (Elt F) (VO_2.writes (Elt F) VO_2.junk (runC m c t h3 p.1 p.2.1 p.2.2).1), VO_3.read (Elt F) (VO_3.writes (Elt F) VO_3.junk (runC m c t h3 p.1 p.2.1 p.2.2).2.1), VS.read (Elt F) (VS.writes (Elt F) VS.junk (runC m c t h3 p.1 p.2.1 p.2.2).2.2.1))
/-- After the first block of a later batch: the second total is carried. -/
def stepD (c : Dev nD) (t : Fin cfg0.N) (hz : ¬ t.val = 0) (h0 : t.val % 4 = 0) (p : Outs F) : Outs F :=
  (VO_2.read (Elt F) (VO_2.writes (Elt F) VO_2.junk (runD m c t hz h0 p.1).1), p.2.1, VS.read (Elt F) (VS.writes (Elt F) VS.junk (runD m c t hz h0 p.1).2.1))

/-! ## The stores of each case cover the buffers they claim -/

theorem coverA_2 (c : Dev nD) (t : Fin cfg0.N) (ht : t.val = 0) (y : S1x1.Idx) : ∃ pc ∈ (runA (F := F) m c t ht).1, y ∈ pc.1.set :=
  View.cover_of_tiledL (runA (F := F) m c t ht).1 S1x1.size (by unfold runA; sl_kernel_rfl) y
theorem coverA_3 (c : Dev nD) (t : Fin cfg0.N) (ht : t.val = 0) (y : S1x1.Idx) : ∃ pc ∈ (runA (F := F) m c t ht).2.1, y ∈ pc.1.set :=
  View.cover_of_tiledL (runA (F := F) m c t ht).2.1 S1x1.size (by unfold runA; sl_kernel_rfl) y
theorem coverA_S (c : Dev nD) (t : Fin cfg0.N) (ht : t.val = 0) (y : S1x4096.Idx) : ∃ pc ∈ (runA (F := F) m c t ht).2.2.1, y ∈ pc.1.set :=
  View.cover_of_tiledL (runA (F := F) m c t ht).2.2.1 S1x4096.size (by unfold runA; sl_kernel_rfl) y
theorem coverB_2 (c : Dev nD) (t : Fin cfg0.N) (h0 : ¬ t.val % 4 = 0) (h3 : ¬ t.val % 4 = 3) (xo2 : Vec F S1x1 .f32) (xs : Vec F S1x4096 .f32) (y : S1x1.Idx) :
    ∃ pc ∈ (runB m c t h0 h3 xo2 xs).1, y ∈ pc.1.set :=
  View.cover_of_tiledL (runB m c t h0 h3 xo2 xs).1 S1x1.size (by unfold runB; sl_kernel_rfl) y
theorem coverB_S (c : Dev nD) (t : Fin cfg0.N) (h0 : ¬ t.val % 4 = 0) (h3 : ¬ t.val % 4 = 3) (xo2 : Vec F S1x1 .f32) (xs : Vec F S1x4096 .f32) (y : S1x4096.Idx) :
    ∃ pc ∈ (runB m c t h0 h3 xo2 xs).2.1, y ∈ pc.1.set :=
  View.cover_of_tiledL (runB m c t h0 h3 xo2 xs).2.1 S1x4096.size (by unfold runB; sl_kernel_rfl) y
theorem coverC_2 (c : Dev nD) (t : Fin cfg0.N) (h3 : t.val % 4 = 3) (xo2 xo3 : Vec F S1x1 .f32) (xs : Vec F S1x4096 .f32) (y : S1x1.Idx) :
    ∃ pc ∈ (runC m c t h3 xo2 xo3 xs).1, y ∈ pc.1.set :=
  View.cover_of_tiledL (runC m c t h3 xo2 xo3 xs).1 S1x1.size (by unfold runC; sl_kernel_rfl) y
theorem coverC_3 (c : Dev nD) (t : Fin cfg0.N) (h3 : t.val % 4 = 3) (xo2 xo3 : Vec F S1x1 .f32) (xs : Vec F S1x4096 .f32) (y : S1x1.Idx) :
    ∃ pc ∈ (runC m c t h3 xo2 xo3 xs).2.1, y ∈ pc.1.set :=
  View.cover_of_tiledL (runC m c t h3 xo2 xo3 xs).2.1 S1x1.size (by unfold runC; sl_kernel_rfl) y
theorem coverC_S (c : Dev nD) (t : Fin cfg0.N) (h3 : t.val % 4 = 3) (xo2 xo3 : Vec F S1x1 .f32) (xs : Vec F S1x4096 .f32) (y : S1x4096.Idx) :
    ∃ pc ∈ (runC m c t h3 xo2 xo3 xs).2.2.1, y ∈ pc.1.set :=
  View.cover_of_tiledL (runC m c t h3 xo2 xo3 xs).2.2.1 S1x4096.size (by unfold runC; sl_kernel_rfl) y
theorem coverD_2 (c : Dev nD) (t : Fin cfg0.N) (hz : ¬ t.val = 0) (h0 : t.val % 4 = 0) (xo2 : Vec F S1x1 .f32) (y : S1x1.Idx) :
    ∃ pc ∈ (runD m c t hz h0 xo2).1, y ∈ pc.1.set :=
  View.cover_of_tiledL (runD m c t hz h0 xo2).1 S1x1.size (by unfold runD; sl_kernel_rfl) y
theorem coverD_S (c : Dev nD) (t : Fin cfg0.N) (hz : ¬ t.val = 0) (h0 : t.val % 4 = 0) (xo2 : Vec F S1x1 .f32) (y : S1x4096.Idx) :
    ∃ pc ∈ (runD m c t hz h0 xo2).2.1, y ∈ pc.1.set :=
  View.cover_of_tiledL (runD m c t hz h0 xo2).2.1 S1x4096.size (by unfold runD; sl_kernel_rfl) y

/-! ## What the carried buffers hold after each point -/

/-- The sweep: after point `n`, the case its number selects, over what point `n - 1` left. -/
def outsAt (c : Dev nD) : (n : ℕ) → n < cfg0.N → Outs F
  | 0, hn => stepA m c ⟨0, hn⟩ rfl
  | n + 1, hn =>
    if h0 : (n + 1) % 4 = 0 then stepD m c ⟨n + 1, hn⟩ (Nat.succ_ne_zero n) h0 (outsAt c n (Nat.lt_of_succ_lt hn))
    else if h3 : (n + 1) % 4 = 3 then stepC m c ⟨n + 1, hn⟩ h3 (outsAt c n (Nat.lt_of_succ_lt hn))
    else stepB m c ⟨n + 1, hn⟩ h0 h3 (outsAt c n (Nat.lt_of_succ_lt hn))

theorem outsAt_A (c : Dev nD) (t : Fin cfg0.N) (ht : t.val = 0) : outsAt m c t.val t.isLt = stepA m c t ht := by
  obtain ⟨n, hn⟩ := t
  cases n with
  | zero => rfl
  | succ n => exact absurd ht (Nat.succ_ne_zero n)
theorem outsAt_B (c : Dev nD) (t : Fin cfg0.N) (h0 : ¬ t.val % 4 = 0) (h3 : ¬ t.val % 4 = 3) :
    outsAt m c t.val t.isLt = stepB m c t h0 h3 (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h3).trans rfl)
theorem outsAt_C (c : Dev nD) (t : Fin cfg0.N) (h3 : t.val % 4 = 3) :
    outsAt m c t.val t.isLt = stepC m c t h3 (outsAt m c (t.val - 1) (Nat.lt_of_le_of_lt (Nat.sub_le _ _) t.isLt)) := by
  obtain ⟨n, hn⟩ := t
  cases n with
  | zero => exact absurd h3 (by dsimp only; omega)
  | succ n => exact (dif_neg (by dsimp only at h3; omega)).trans ((dif_pos h3).trans rfl)
theorem outsAt_D (c : Dev nD) (t : Fin cfg0.N) (hz : ¬ t.val = 0) (h0 : t.val % 4 = 0) :
    outsAt m c t.val t.isLt = stepD m c t hz h0 (outsAt m c (t.val - 1) (Nat.lt_of_le_of_lt (Nat.sub_le _ _) t.isLt)) := by
  obtain ⟨n, hn⟩ := t
  cases n with
  | zero => exact absurd rfl hz
  | succ n => exact (dif_pos h0).trans rfl

/-- At a point that neither zeroes the second total nor ends a batch, the second total is what the point before left. -/
theorem outsAt_carry (c : Dev nD) (t : Fin cfg0.N) (hz : ¬ t.val = 0) (h3 : ¬ t.val % 4 = 3) :
    (outsAt m c t.val t.isLt).2.1 = (outsAt m c (t.val - 1) (Nat.lt_of_le_of_lt (Nat.sub_le _ _) t.isLt)).2.1 := by
  by_cases h0 : t.val % 4 = 0
  · rw [outsAt_D m c t hz h0]; unfold stepD; dsimp only
  · rw [outsAt_B m c t h0 h3]; unfold stepB; dsimp only

/-! ## The region's invariant -/

/-- Before the first point the running minimum's buffer holds anything; before point `n + 1` what point `n` left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (outsAt m c t.val t.isLt).1 := by dsimp only [dats]
theorem after_3 (c : Dev nD) (t : Fin cfg0.N) : (dats m 0 c).after 3 t = (outsAt m c t.val t.isLt).2.1 := by dsimp only [dats]

/-! ## What each buffer holds when the body is entered -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- At the first point the totals' buffers hold anything. -/
theorem before_2_zero (c : Dev nD) (t : Fin cfg0.N) (ht : t.val = 0) (d) : (dats m 0 c).before 2 t d = d :=
  Dat.before_out_reset _ 2 rfl t (.inl ht) d
theorem before_3_zero (c : Dev nD) (t : Fin cfg0.N) (ht : t.val = 0) (d) : (dats m 0 c).before 3 t d = d :=
  Dat.before_out_reset _ 3 rfl t (.inl ht) d
/-- Later the first total's buffer holds what the point before left: it is stored at every point and written back only
    after the last. -/
theorem before_2_pos (c : Dev nD) (t : Fin cfg0.N) (ht : t.val ≠ 0) (d) :
    (dats m 0 c).before 2 t d = (outsAt m c (t.val - 1) (Nat.lt_of_le_of_lt (Nat.sub_le _ _) t.isLt)).1 := by
  have hN : t.val < 16 := lt_of_lt_of_eq t.isLt (show cfg0.N = 16 from N_0)
  rw [Dat.before_out_kept _ 2 rfl t ht (noFlush_2_lt _ (by dsimp only; omega)) (fun _ => rfl) (fun _ _ => rfl)]
  dsimp only [dats]
/-- And so does the second total's, looking back through the points that leave it untouched. -/
theorem before_3_pos (c : Dev nD) : ∀ (n : ℕ) (hn : n < cfg0.N), n ≠ 0 → ∀ d,
    (dats m 0 c).before 3 ⟨n, hn⟩ d = (outsAt m c (n - 1) (Nat.lt_of_le_of_lt (Nat.sub_le _ _) hn)).2.1 := by
  intro n
  induction n using Nat.strong_induction_on with
  | _ n ih =>
    intro hn hz d
    have hN : n < 16 := lt_of_lt_of_eq hn (show cfg0.N = 16 from N_0)
    rw [Dat.before_of_pos _ 3 ⟨n, hn⟩ hz ((cfg0.win 3).fetch_out rfl _) d,
      noFlush_3_lt ⟨n - 1, Nat.lt_of_le_of_lt (Nat.sub_le _ _) hn⟩ (by dsimp only; omega), if_neg Bool.false_ne_true]
    unfold Dat.left
    by_cases hlive : n - 1 = 0 ∨ (n - 1) % 4 = 3
    · rw [liveAt_3 ⟨n - 1, Nat.lt_of_le_of_lt (Nat.sub_le _ _) hn⟩ hlive]
      dsimp only
      unfold Dat.kept
      rw [Pipeline.fill_of_clip_none 3 _ (fun _ => rfl) d ((dats m 0 c).after 3 _), Window.fill_cut]
      dsimp only [dats]
    · have h1 : ¬ (n - 1 = 0) := fun h => hlive (.inl h)
      have h2 : ¬ ((n - 1) % 4 = 3) := fun h => hlive (.inr h)
      rw [idleAt_3 ⟨n - 1, Nat.lt_of_le_of_lt (Nat.sub_le _ _) hn⟩ h1 h2]
      dsimp only
      rw [ih (n - 1) (by omega) (Nat.lt_of_le_of_lt (Nat.sub_le _ _) hn) h1 d]
      exact (outsAt_carry m c ⟨n - 1, Nat.lt_of_le_of_lt (Nat.sub_le _ _) hn⟩ h1 h2).symm

end Cert.KernelIdeal.Body

end
-- ==== Proof.KI.Sound.lean ====
/-
  The body keeps its contract at every point of the sweep: handed the two input blocks, the two totals' buffers at what
  the point before left (anything at the first point) and the running minimum's buffer likewise, it runs without fault and
  hands everything back at the next entry of the recursion. By cases on the point's number (first point; first block of a
  later batch; last block of a batch; a middle block), each the corresponding run. Then the whole program's run and the
  frame: every execution ends, and the two argument arrays are as they were.
-/
import proofs.«152712_g89532888252875_cont_sun_m_849_7_alg».proof.Proof.KI.Outs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A variant of the look-back for the second total stated at a point. -/
theorem before_3_pos' (c : Dev nD) (t : Fin cfg0.N) (ht : t.val ≠ 0) (d) :
    (dats m 0 c).before 3 t d = (outsAt m c (t.val - 1) (Nat.lt_of_le_of_lt (Nat.sub_le _ _) t.isLt)).2.1 :=
  before_3_pos m c t.val t.isLt ht d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms_0 t) fullShare ((dats m 0 c).after 0 t) from by
      unfold Dat.leavesExact; rw [liveAt_0 t], after_0]
  rw [show (dats m 0 c).leavesExact 1 t = owns (c : Thread nD τ) (ms_1 t) fullShare ((dats m 0 c).after 1 t) from by
      unfold Dat.leavesExact; rw [liveAt_1 t], after_1]
  rw [show (dats m 0 c).leavesExact 2 t = owns (c : Thread nD τ) (ms_2 t) fullShare ((dats m 0 c).after 2 t) from by
      unfold Dat.leavesExact; rw [liveAt_2 t], after_2]
  have hN : t.val < 16 := lt_of_lt_of_eq t.isLt (show cfg0.N = 16 from N_0)
  by_cases hz : t.val = 0
  · -- the first point
    rw [show (dats m 0 c).leavesExact 3 t = owns (c : Thread nD τ) (ms_3 t) fullShare ((dats m 0 c).after 3 t) from by
      unfold Dat.leavesExact; rw [liveAt_3 t (.inl hz)], after_3]
    rw [outsAt_A m c t hz]
    unfold stepA; dsimp only
    simp only [before_2_zero m c t hz, before_3_zero m c t hz]
    rw [PhiS_castSucc m c t, PhiS_zero m c _ _ hz, PhiA_eq]
    iintro ⟨⟨HS, Hg⟩, Ho, ⟨%d0, H0⟩, ⟨%d1, H1⟩, H2, H3⟩
    iapply ((runA m c t hz).2.2.2 Set.univ _)
    isplitl [H0]; · iexact H0
    isplitl [H1]; · iexact H1
    isplitl [H2]; · iexact H2
    isplitl [H3]; · iexact H3
    isplitl [HS]; · iexact HS
    iintro ⟨H0, H1, ⟨%e2, H2⟩, ⟨%e3, H3⟩, ⟨%es, HS⟩⟩
    isplitl [HS Hg]
    · isplitl [HS]
      · unfold owns; iexists _; isplitr
        swap; · iexact HS
        ipureintro; exact View.read_writes_of_cover _ _ _ _ _ (coverA_S m c t hz)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA_2 m c t hz)
    unfold owns; iexists _; isplitr
    swap; · iexact H3
    ipureintro; exact View.read_writes_of_cover _ _ _ _ _ (coverA_3 m c t hz)
  · rw [PhiS_castSucc m c t, PhiS_pos m c _ _ hz]
    simp only [before_2_pos m c t hz, before_3_pos' m c t hz]
    by_cases h0 : t.val % 4 = 0
    · -- the first block of a later batch
      rw [Dat.leavesExact_idle (dats m 0 c) 3 t (idleAt_3 t hz (by omega)) (noFlush_3 t (by omega))]
      simp only [before_3_pos' m c t hz]
      rw [outsAt_D m c t hz h0]
      unfold stepD; dsimp only
      iintro ⟨⟨HS, Hg⟩, Ho, ⟨%d0, H0⟩, ⟨%d1, H1⟩, ⟨%d2, H2⟩, ⟨%d3, H3⟩⟩
      iapply ((runD m c t hz h0 _).2.2 _ Set.univ _)
      isplitl [H0]; · iexact H0
      isplitl [H1]; · iexact H1
      isplitl [H2]; · iexact H2
      isplitl [H3]; · iexact H3
      isplitl [HS]; · iexists _; iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (coverD_S m c t hz h0 _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (coverD_2 m c t hz h0 _)
      iexists d3; iexact H3
    · by_cases h3 : t.val % 4 = 3
      · -- the last block of a batch
        rw [show (dats m 0 c).leavesExact 3 t = owns (c : Thread nD τ) (ms_3 t) fullShare ((dats m 0 c).after 3 t) from by
          unfold Dat.leavesExact; rw [liveAt_3 t (.inr h3)], after_3]
        rw [outsAt_C m c t h3]
        unfold stepC; dsimp only
        iintro ⟨⟨HS, Hg⟩, Ho, ⟨%d0, H0⟩, ⟨%d1, H1⟩, ⟨%d2, H2⟩, ⟨%d3, H3⟩⟩
        iapply ((runC m c t h3 _ _ _).2.2.2 Set.univ _)
        isplitl [H0]; · iexact H0
        isplitl [H1]; · iexact H1
        isplitl [H2]; · iexact H2
        isplitl [H3]; · iexact H3
        isplitl [HS]; · iexact HS
        iintro ⟨H0, H1, ⟨%e2, H2⟩, ⟨%e3, H3⟩, ⟨%es, HS⟩⟩
        isplitl [HS Hg]
        · isplitl [HS]
          · unfold owns; iexists _; isplitr
            swap; · iexact HS
            ipureintro; exact View.read_writes_of_cover _ _ _ _ _ (coverC_S m c t h3 _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (coverC_2 m c t h3 _ _ _)
        unfold owns; iexists _; isplitr
        swap; · iexact H3
        ipureintro; exact View.read_writes_of_cover _ _ _ _ _ (coverC_3 m c t h3 _ _ _)
      · -- a middle block
        rw [Dat.leavesExact_idle (dats m 0 c) 3 t (idleAt_3 t hz h3) (noFlush_3 t h3)]
        simp only [before_3_pos' m c t hz]
        rw [outsAt_B m c t h0 h3]
        unfold stepB; dsimp only
        iintro ⟨⟨HS, Hg⟩, Ho, ⟨%d0, H0⟩, ⟨%d1, H1⟩, ⟨%d2, H2⟩, ⟨%d3, H3⟩⟩
        iapply ((runB m c t h0 h3 _ _).2.2 _ Set.univ _)
        isplitl [H0]; · iexact H0
        isplitl [H1]; · iexact H1
        isplitl [H2]; · iexact H2
        isplitl [H3]; · iexact H3
        isplitl [HS]; · iexact HS
        iintro ⟨H0, H1, ⟨%e2, H2⟩, H3, ⟨%es, HS⟩⟩
        isplitl [HS Hg]
        · isplitl [HS]
          · unfold owns; iexists _; isplitr
            swap; · iexact HS
            ipureintro; exact View.read_writes_of_cover _ _ _ _ _ (coverB_S m c t h0 h3 _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (coverB_2 m c t h0 h3 _ _)
        iexists d3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the region's back: the running minimum's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- Every weakly fair execution of the program terminates, and every final state has each array of the pipeline at what
    the proof data says was written back, every other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.Pieces.lean ====
/-
  What each case of the body leaves in the three carried buffers, as the body's own arithmetic applied to the point's
  blocks and to what the buffers held: every buffer a case stores into is last stored whole, so it ends at that store's
  value, and a load that follows a whole store reads that store's value.
-/
import proofs.«152712_g89532888252875_cont_sun_m_849_7_alg».proof.Proof.KI.Outs
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem stepA_1 (c : Dev nD) (t : Fin cfg0.N) (ht : t.val = 0) :
    (stepA m c t ht).1 = k0_pay8 (iblk m c 0 t) (iblk m c 1 t) (k0_pay6 (F := F)) := by
  unfold stepA; dsimp only
  rw [View.read_writes_eq_canon _ _ _ (coverA_2 m c t ht)]
  unfold runA kernelRun_A
  dsimp only
  try sl_unfold_words
  rw [View.canon_cons_unit_zero (S := S1x1) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepA_2 (c : Dev nD) (t : Fin cfg0.N) (ht : t.val = 0) :
    (stepA m c t ht).2.1 = k0_pay7 (F := F) := by
  unfold stepA; dsimp only
  rw [View.read_writes_eq_canon _ _ _ (coverA_3 m c t ht)]
  unfold runA kernelRun_A
  dsimp only
  try sl_unfold_words
  rw [View.canon_cons_unit_zero (S := S1x1) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepA_S (c : Dev nD) (t : Fin cfg0.N) (ht : t.val = 0) :
    (stepA m c t ht).2.2 = k0_pay1 (k0_pay5 (iblk m c 0 t) (iblk m c 1 t)) := by
  unfold stepA; dsimp only
  rw [View.read_writes_eq_canon _ _ _ (coverA_S m c t ht)]
  unfold runA kernelRun_A
  dsimp only
  try sl_unfold_words
  rw [View.canon_cons_unit_zero (S := S1x4096) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepB_1 (c : Dev nD) (t : Fin cfg0.N) (h0 : ¬ t.val % 4 = 0) (h3 : ¬ t.val % 4 = 3) (p : Outs F) :
    (stepB m c t h0 h3 p).1 = k0_pay8 (iblk m c 0 t) (iblk m c 1 t) p.1 := by
  unfold stepB; dsimp only
  rw [View.read_writes_eq_canon _ _ _ (coverB_2 m c t h0 h3 _ _)]
  unfold runB kernelRun_B
  dsimp only
  try sl_unfold_words
  rw [View.canon_cons_unit_zero (S := S1x1) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepB_S (c : Dev nD) (t : Fin cfg0.N) (h0 : ¬ t.val % 4 = 0) (h3 : ¬ t.val % 4 = 3) (p : Outs F) :
    (stepB m c t h0 h3 p).2.2 = k0_pay2 (k0_pay5 (iblk m c 0 t) (iblk m c 1 t)) p.2.2 := by
  unfold stepB; dsimp only
  rw [View.read_writes_eq_canon _ _ _ (coverB_S m c t h0 h3 _ _)]
  unfold runB kernelRun_B
  dsimp only
  try sl_unfold_words
  rw [View.canon_cons_unit_zero (S := S1x4096) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepC_1 (c : Dev nD) (t : Fin cfg0.N) (h3 : t.val % 4 = 3) (p : Outs F) :
    (stepC m c t h3 p).1 = k0_pay8 (iblk m c 0 t) (iblk m c 1 t) p.1 := by
  unfold stepC; dsimp only
  rw [View.read_writes_eq_canon _ _ _ (coverC_2 m c t h3 _ _ _)]
  unfold runC kernelRun_C
  dsimp only
  try sl_unfold_words
  rw [View.canon_cons_unit_zero (S := S1x1) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepC_2 (c : Dev nD) (t : Fin cfg0.N) (h3 : t.val % 4 = 3) (p : Outs F) :
    (stepC m c t h3 p).2.1 = k0_pay3 p.2.1 (k0_pay2 (k0_pay5 (iblk m c 0 t) (iblk m c 1 t)) p.2.2) := by
  unfold stepC; dsimp only
  rw [View.read_writes_eq_canon _ _ _ (coverC_3 m c t h3 _ _ _)]
  unfold runC kernelRun_C
  dsimp only
  try sl_unfold_words
  rw [View.canon_cons_unit_zero (S := S1x1) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepC_S (c : Dev nD) (t : Fin cfg0.N) (h3 : t.val % 4 = 3) (p : Outs F) :
    (stepC m c t h3 p).2.2 = k0_pay2 (k0_pay5 (iblk m c 0 t) (iblk m c 1 t)) p.2.2 := by
  unfold stepC; dsimp only
  rw [View.read_writes_eq_canon _ _ _ (coverC_S m c t h3 _ _ _)]
  unfold runC kernelRun_C
  dsimp only
  try sl_unfold_words
  rw [View.canon_cons_unit_zero (S := S1x4096) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepD_1 (c : Dev nD) (t : Fin cfg0.N) (hz : ¬ t.val = 0) (h0 : t.val % 4 = 0) (p : Outs F) :
    (stepD m c t hz h0 p).1 = k0_pay8 (iblk m c 0 t) (iblk m c 1 t) p.1 := by
  unfold stepD; dsimp only
  rw [View.read_writes_eq_canon _ _ _ (coverD_2 m c t hz h0 _)]
  unfold runD kernelRun_D
  dsimp only
  try sl_unfold_words
  rw [View.canon_cons_unit_zero (S := S1x1) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

theorem stepD_S (c : Dev nD) (t : Fin cfg0.N) (hz : ¬ t.val = 0) (h0 : t.val % 4 = 0) (p : Outs F) :
    (stepD m c t hz h0 p).2.2 = k0_pay1 (k0_pay5 (iblk m c 0 t) (iblk m c 1 t)) := by
  unfold stepD; dsimp only
  rw [View.read_writes_eq_canon _ _ _ (coverD_S m c t hz h0 _)]
  unfold runD kernelRun_D
  dsimp only
  try sl_unfold_words
  rw [View.canon_cons_unit_zero (S := S1x4096) hz2]
  try simp only [View.readCov_unit_zero (S := S1x1) _ hz2, View.readCov_unit_zero (S := S1x4096) _ hz2, View.readAt_eq_ld,
    (hs_0 t).read_unread, (hs_1 t).read_unread, (hs_2 t).read_unread, (hs_3 t).read_unread,
    (Memref.isWhole_whole cc0_scratch0).read_unread,
    View.ld_unit_zero (S := S1x1024x3) hz3, View.ld_unit_zero (S := S1x3x4096) hz3, View.ld_unit_zero (S := S1x1) hz2,
    View.ld_unit_zero (S := S1x4096) hz2]

/-- The second total is carried through a middle block and through the first block of a later batch. -/
theorem stepB_2 (c : Dev nD) (t : Fin cfg0.N) (h0 : ¬ t.val % 4 = 0) (h3 : ¬ t.val % 4 = 3) (p : Outs F) : (stepB m c t h0 h3 p).2.1 = p.2.1 := by
  unfold stepB; dsimp only
theorem stepD_2 (c : Dev nD) (t : Fin cfg0.N) (hz : ¬ t.val = 0) (h0 : t.val % 4 = 0) (p : Outs F) : (stepD m c t hz h0 p).2.1 = p.2.1 := by
  unfold stepD; dsimp only

end Cert.KernelIdeal.Body

end
-- ==== Proof.Spec.lean ====
/-
  The mathematics of the bidirectional nearest-neighbour squared distance, stated once over a table
  `d b n m` of extended reals (the squared distance between point `n` of the first cloud and point `m` of the
  second, in batch `b`: 4 batches, 4096 points each), with the two ways of totalling it that have to agree:

  * blockwise, as a sweep over 16 grid points (batch `s / 4`, block `s % 4` of 1024 rows): at each point the sum
    over the block's rows of the row's minimum over all columns, added up; per batch, for every column the
    minimum over the four blocks of the block's column minimum, taken block after block, then summed over the
    columns once the batch's last block is done; each of the two totals divided by 16384;
  * whole, per batch: the mean over rows of the row minima plus the mean over columns of the column minima
    (each a sum divided by 4096), then the mean over the 4 batches.

  Every minimum is a fold of `min` from the f32 word of +∞, every constant the value of its f32 word.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- The f32 word of +∞, read at the extended reals. -/
abbrev pinf : EReal := Ideal.ofBits .f32 0x7F800000#32
/-- The f32 zero word. -/
abbrev zero : EReal := Ideal.ofBits .f32 0x00000000#32
/-- The f32 words of 1, 4, 4096 and 16384. -/
abbrev one : EReal := Ideal.ofBits .f32 0x3F800000#32
abbrev c4 : EReal := Ideal.ofBits .f32 0x40800000#32
abbrev c4096 : EReal := Ideal.ofBits .f32 0x45800000#32
abbrev c16384 : EReal := Ideal.ofBits .f32 0x46800000#32

/-- A table of squared distances: batch, row (a point of the first cloud), column (a point of the second). -/
abbrev Dist := Fin 4 → Fin 4096 → Fin 4096 → EReal

/-- Row `r` of block `i` is row `1024 i + r` of the batch. -/
def row (i : Fin 4) (r : Fin 1024) : Fin 4096 := ⟨i.val * 1024 + r.val, by omega⟩

/-- The minimum of row `n` over all columns. -/
def rowMin (d : Dist) (b : Fin 4) (n : Fin 4096) : EReal :=
  (Finset.univ : Finset (Fin 4096)).fold min pinf (fun m => d b n m)

/-- The minimum of column `m` over all rows. -/
def colMin (d : Dist) (b : Fin 4) (m : Fin 4096) : EReal :=
  (Finset.univ : Finset (Fin 4096)).fold min pinf (fun n => d b n m)

/-- The minimum of column `m` over the 1024 rows of block `i`. -/
def colMinBlk (d : Dist) (b : Fin 4) (i : Fin 4) (m : Fin 4096) : EReal :=
  (Finset.univ : Finset (Fin 1024)).fold min pinf (fun r => d b (row i r) m)

/-- One grid point's share of the row total: the row minima of block `i`, summed. -/
def rowPart (d : Dist) (b i : Fin 4) : EReal := ∑ r : Fin 1024, rowMin d b (row i r)

/-- The running column minimum after the batch's four blocks, taken block after block. -/
def colAcc (d : Dist) (b : Fin 4) (m : Fin 4096) : EReal :=
  min (min (min (colMinBlk d b 0 m) (colMinBlk d b 1 m)) (colMinBlk d b 2 m)) (colMinBlk d b 3 m)

/-- One batch's share of the column total. -/
def colPart (d : Dist) (b : Fin 4) : EReal := ∑ m : Fin 4096, colAcc d b m

/-- Grid point `s` of the 4 × 4 sweep works on batch `s / 4`, block `s % 4`. -/
def fin4 (n : ℕ) : Fin 4 := ⟨n % 4, Nat.mod_lt _ (by decide)⟩
def batchOf (s : ℕ) : Fin 4 := fin4 (s / 4)
def blockOf (s : ℕ) : Fin 4 := fin4 s

/-- The blockwise total. -/
def sweepTotal (d : Dist) : EReal :=
  Ideal.div (∑ s ∈ Finset.range 16, rowPart d (batchOf s) (blockOf s)) c16384
    + Ideal.div (∑ b ∈ Finset.range 4, colPart d (fin4 b)) c16384

/-- The whole-array total. -/
def wholeTotal (d : Dist) : EReal :=
  Ideal.div (∑ b : Fin 4,
      (one * Ideal.div (∑ n : Fin 4096, rowMin d b n) c4096
        + Ideal.div (∑ m : Fin 4096, colMin d b m) c4096)) c4

/-- A point cloud: batch, point, coordinate. -/
abbrev Cloud := (⟨3, ![4, 4096, 3]⟩ : Shape).Idx → EReal

/-- Every coordinate is a real number. -/
def Finite (x : Cloud) : Prop := ∀ j, ∃ r : ℝ, x j = (r : EReal)

/-- The squared norm of point `n` of batch `b`. -/
def sqNorm (x : Cloud) (b : Fin 4) (n : Fin 4096) : EReal := ∑ k : Fin 3, x (ix3 b n k) * x (ix3 b n k)

/-- The squared distance as the blockwise side computes it: the two squared norms plus the inner product of
    `-2 x` with `y`. -/
def kerDist (x y : Cloud) : Dist := fun b n m =>
  (sqNorm x b n + sqNorm y b m) + ∑ k : Fin 3, (Ideal.ofBits .f32 0xC0000000#32 * x (ix3 b n k)) * y (ix3 b m k)

/-- The squared distance as the whole-array side computes it: the two squared norms minus twice the inner
    product. -/
def refDist (x y : Cloud) : Dist := fun b n m =>
  (sqNorm x b n + sqNorm y b m) - Ideal.ofBits .f32 0x40000000#32 * ∑ k : Fin 3, x (ix3 b n k) * y (ix3 b m k)

end Cert.Chamfer

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«152712_g89532888252875_cont_sun_m_849_7_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibRowMin.lean ====
/- The lane MINIMUM along the second axis of a two-axis array, read at row p over the extended reals: min folded over the row
   from the initial word; the host's sum along that axis as the initial value plus the plain sum over the row; and a length-n vector viewed as an a × b array (n = a·b, rows of length b laid end to end), read at
   (p, k) as the vector's entry p·b + k. For any extents and element type. Names no program. -/
import proofs.«152712_g89532888252875_cont_sun_m_849_7_alg».proof.Proof.LibRowReduce
import Idealize.ShloMosaic.PureOps.Ideal
import Idealize.ShloMosaic.PureOps.Ideal.Laws
import Idealize.ShloMosaic.Lib.Pipeline.Value
import Idealize.ShloMosaic.Lib.ValueIdx

noncomputable section

namespace Cert.LibRowMin

open Idealize.ShloMosaic Idealize.ShloMosaic.ValueIdx

variable {a b : ℕ}

/-- The lane minimum of row p: min folded over the row from the initial word. -/
theorem rowMin_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.minimumf.neutral φ hφ) (p : Fin a) :
    multiReduction .minimumf [(1 : Fin 2)] ⟨1, ![a]⟩ src acc h hφ hacc (ix1 p)
      = (Finset.univ : Finset (Fin b)).fold min (FloatOps.ofBits (F := Ideal) φ acc) (fun k => src (ix2 p k)) := by
  rw [multiReduction_minimumf_eq_fold]
  refine (h.fold_filter_drop_single _ _ src (ix1 p)).trans ?_
  exact congrArg (fun f => (Finset.univ : Finset (Fin b)).fold min (FloatOps.ofBits (F := Ideal) φ acc) f)
    (funext fun k => congrArg src (Cert.LibRowReduce.lift_row h p k))

/-- The lane sum of row p of an f32 array from the zero word, with the side condition on the initial word spelt as an
    equation between the two literal words (the form a printed reduction carries). -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  Cert.LibRowReduce.rowSum_apply src 0x00000000#32 h hφ hacc p

/-- The lane minimum of row p of an f32 array from the word of +∞, the side condition spelt the same way. -/
theorem rowMin_f32 (src : FVec Ideal ⟨2, ![a, b]⟩ .f32)
    (h : (⟨2, ![a, b]⟩ : Shape).Reduces [(1 : Fin 2)] ⟨1, ![a]⟩) (hφ : FKind.Formats .f32)
    (hacc : (0x7F800000#32 : BitVec 32) = 0x7F800000#32) (p : Fin a) :
    multiReduction .minimumf [(1 : Fin 2)] ⟨1, ![a]⟩ src 0x7F800000#32 h hφ hacc (ix1 p)
      = (Finset.univ : Finset (Fin b)).fold min (Ideal.ofBits .f32 0x7F800000#32) (fun k => src (ix2 p k)) :=
  rowMin_apply src 0x7F800000#32 h hφ hacc p

/-- The HOST's sum along the second axis at row p: the initial value plus the plain sum over the row. -/
theorem hostRowSum_apply (x : (⟨2, ![a, b]⟩ : Shape).Idx → EReal) (init : EReal)
    (h' : (⟨2, ![a, b]⟩ : Shape).ReducesTo [(1 : Fin 2)] ⟨1, ![a]⟩) (h : (⟨2, ![a, b]⟩ : Shape).Reduces [(1 : Fin 2)] ⟨1, ![a]⟩)
    (p : Fin a) : Ideal.hostReduceAdd h' x init (ix1 p) = init + ∑ k : Fin b, x (ix2 p k) :=
  (Ideal.hostReduceAdd_single h' h x init (ix1 p)).trans
    (congrArg (fun z => init + z) (Finset.sum_congr rfl fun k _ => congrArg x (Cert.LibRowReduce.lift_row h p k)))

variable {α : Type}

/-- A vector of length n cast to an a × b array reads, at (p, k), the vector's entry q whenever q = p·b + k. -/
theorem shapeCast_n_ab_apply {n : ℕ} (v : (⟨1, ![n]⟩ : Shape).Idx → α)
    (h : (⟨1, ![n]⟩ : Shape).ShapeCasts ⟨2, ![a, b]⟩) (p : Fin a) (k : Fin b) (q : Fin n) (hq : q.val = p.val * b + k.val) :
    shapeCast ⟨2, ![a, b]⟩ v h (ix2 p k) = v (ix1 q) :=
  shapeCast_apply v h _ _ (by
    rw [Shape.rowMajor_val_two, Shape.rowMajor_val_one]
    exact hq)

end Cert.LibRowMin

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColReduce.lean ====
/-
  Reductions of a two-axis array along its FIRST axis, read at an index over the extended reals: the sum down column q is
  the plain sum over the rows of the entries of that column, the minimum down column q is min folded over the rows from
  the initial word. The companions, for the first axis, of the row reductions along the second. For any extents and
  element type. Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibColReduce

open Idealize.ShloMosaic Idealize.ShloMosaic.ValueIdx

variable {a b : ℕ}

/-- Result index q of a reduction along the first axis, with the dropped coordinate k put back, is (k, q). -/
theorem lift_col (h : (⟨2, ![a, b]⟩ : Shape).Reduces [(0 : Fin 2)] ⟨1, ![b]⟩) (q : Fin b) (k : Fin a) :
    h.lift (ix1 q) k = ix2 k q := by
  funext c
  apply Fin.ext
  match c with
  | ⟨0, _⟩ => rfl
  | ⟨1, _⟩ => rfl

/-- The sum down column q: the plain sum over the rows. -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The minimum down column q: min folded over the rows from the initial word. -/
theorem colMin_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits (F := Ideal) φ acc) (fun k => src (ix2 k q)) := by
  rw [multiReduction_minimumf_eq_fold]
  refine (h.fold_filter_drop_single _ _ src (ix1 q)).trans ?_
  exact congrArg (fun f => (Finset.univ : Finset (Fin a)).fold min (FloatOps.ofBits (F := Ideal) φ acc) f)
    (funext fun k => congrArg src (lift_col h q k))

/-- The sum down column q of an f32 array from the zero word, with the side condition on the initial word spelt as an
    equation between the two literal words (the form a printed reduction carries). -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ k : Fin a, src (ix2 k q) :=
  colSum_apply src 0x00000000#32 h hφ hacc q

/-- The minimum down column q of an f32 array from the word of +∞, the side condition spelt the same way. -/
theorem colMin_f32 (src : FVec Ideal ⟨2, ![a, b]⟩ .f32)
    (h : (⟨2, ![a, b]⟩ : Shape).Reduces [(0 : Fin 2)] ⟨1, ![b]⟩) (hφ : FKind.Formats .f32)
    (hacc : (0x7F800000#32 : BitVec 32) = 0x7F800000#32) (q : Fin b) :
    multiReduction .minimumf [(0 : Fin 2)] ⟨1, ![b]⟩ src 0x7F800000#32 h hφ hacc (ix1 q)
      = (Finset.univ : Finset (Fin a)).fold min (Ideal.ofBits .f32 0x7F800000#32) (fun k => src (ix2 k q)) :=
  colMin_apply src 0x7F800000#32 h hφ hacc q

end Cert.LibColReduce

end
-- ==== Proof.Payload.lean ====
/-
  The block computation at one grid point, read entry by entry over the extended reals (every operation exact, every
  change of format the identity).

  A grid point holds 1024 points of the first cloud, `v0 (0, r, k)` (point r, coordinate k), and all 4096 points of the
  second cloud TRANSPOSED, `v2 (0, k, m)` (coordinate k, point m). From them it forms the 1024 × 4096 table

      blkDist r m = (Σ_k v0(r,k)² + Σ_k v2(k,m)²) + Σ_k (−2 · v0(r,k)) · v2(k,m),

  the squared norm of each point kept as a column / a row and repeated across the table, the cross term a plain matrix
  product into a zero accumulator. Then: the minimum of every row, summed over the 1024 rows and added to a running
  total; the minimum of every column over the 1024 rows; the running column minimum combined with a new one by `min`;
  the column minima summed into a second running total; and the zero the two totals start from.

  Each step that is not entrywise is read at explicit coordinates `(p, q)` by its own lemma; the statements about the
  generated payload definitions follow by putting the steps together.
-/
import proofs.«152712_g89532888252875_cont_sun_m_849_7_alg».proof.Proof.Gen.KernelIdeal.Skeleton
import proofs.«152712_g89532888252875_cont_sun_m_849_7_alg».proof.Proof.Spec
import proofs.«152712_g89532888252875_cont_sun_m_849_7_alg».proof.Proof.LibColumn
import proofs.«152712_g89532888252875_cont_sun_m_849_7_alg».proof.Proof.LibRowReduce
import proofs.«152712_g89532888252875_cont_sun_m_849_7_alg».proof.Proof.LibRowMin
import proofs.«152712_g89532888252875_cont_sun_m_849_7_alg».proof.Proof.LibPlainDot
import proofs.«152712_g89532888252875_cont_sun_m_849_7_alg».proof.Proof.LibColReduce
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.Chamfer Idealize.ShloMosaic Idealize.ShloMosaic.ValueIdx

/-- Entry (r, m) of the block's table of squared distances: the squared norm of point r of the first cloud's block, plus
    the squared norm of point m of the second cloud, plus the inner product of −2 times the first point with the
    second. -/
def blkDist (v0 : Vec Ideal S1x1024x3 .f32) (v2 : Vec Ideal S1x3x4096 .f32) (r : Fin 1024) (m : Fin 4096) : EReal :=
  ((∑ k : Fin 3, v0 (ix3 0 r k) * v0 (ix3 0 r k)) + (∑ k : Fin 3, v2 (ix3 0 k m) * v2 (ix3 0 k m)))
    + ∑ k : Fin 3, (Ideal.ofBits .f32 0xC0000000#32 * v0 (ix3 0 r k)) * v2 (ix3 0 k m)

/-! ## The steps that are not entrywise, at explicit coordinates -/

/-- The first cloud's block without its leading unit axis: entry (p, k) is entry (0, p, k). -/
theorem dropUnit_rows (v0 : Vec Ideal S1x1024x3 .f32) (h : S1x1024x3.ShapeCasts S1024x3) (p : Fin 1024) (k : Fin 3) :
    shapeCast S1024x3 v0 h (ix2 p k) = v0 (ix3 (0 : Fin 1) p k) :=
  shapeCast_1ab_ab_apply v0 h p k

/-- The second cloud's block without its leading unit axis: entry (k, q) is entry (0, k, q). -/
theorem dropUnit_cols (v2 : Vec Ideal S1x3x4096 .f32) (h : S1x3x4096.ShapeCasts S3x4096) (k : Fin 3) (q : Fin 4096) :
    shapeCast S3x4096 v2 h (ix2 k q) = v2 (ix3 (0 : Fin 1) k q) :=
  shapeCast_1ab_ab_apply v2 h k q

/-- The sum along each row of a 1024 × 3 array, kept as a column and repeated across 4096 columns: at (p, q), the sum
    of row p. -/
theorem rowSum_repeat (x : FVec Ideal S1024x3 .f32) (hr : S1024x3.Reduces [1] S1024) (hφ : FKind.Formats .f32)
    (hacc : (0x00000000#32 : BitVec 32) = 0x00000000#32) (hc : S1024.ShapeCasts S1024x1)
    (hb : S1024x1.Broadcasts S1024x4096) (p : Fin 1024) (q : Fin 4096) :
    broadcastTo S1024x4096 (shapeCast S1024x1 (multiReduction .add [1] S1024 x 0x00000000#32 hr hφ hacc) hc) hb (ix2 p q)
      = ∑ k : Fin 3, x (ix2 p k) :=
  (Cert.LibRowReduce.column_repeat_apply _ hc hb p q).trans (Cert.LibRowMin.rowSum_f32 x hr hφ hacc p)

/-- The sum down each column of a 3 × 4096 array, kept as a row and repeated over 1024 rows: at (p, q), the sum of
    column q. -/
theorem colSum_repeat (y : FVec Ideal S3x4096 .f32) (hr : S3x4096.Reduces [0] S4096) (hφ : FKind.Formats .f32)
    (hacc : (0x00000000#32 : BitVec 32) = 0x00000000#32) (hc : S4096.ShapeCasts S1x4096)
    (hb : S1x4096.Broadcasts S1024x4096) (p : Fin 1024) (q : Fin 4096) :
    broadcastTo S1024x4096 (shapeCast S1x4096 (multiReduction .add [0] S4096 y 0x00000000#32 hr hφ hacc) hc) hb (ix2 p q)
      = ∑ k : Fin 3, y (ix2 k q) :=
  (broadcastTo_1b_ab_apply _ hb p q).trans
    ((shapeCast_a_1a_apply _ hc (0 : Fin 1) q).trans (Cert.LibColReduce.colSum_f32 y hr hφ hacc q))

/-- The 1024 × 3 by 3 × 4096 product into a zero accumulator: at (p, q), the sum over k of the products. -/
theorem cross_apply (l : FVec Ideal S1024x3 .bf16) (r : FVec Ideal S3x4096 .bf16) (p : Fin 1024) (q : Fin 4096) :
    matmul dot_S1024x3_S3x4096_S1024x4096_1_0_0_1_n_n none l r (constant S1024x4096 .f32 0x00000000#32) (ix2 p q)
      = ∑ k : Fin 3, l (ix2 p k) * r (ix2 k q) :=
  Cert.LibPlainDot.matmul_zero_apply dot_S1024x3_S3x4096_S1024x4096_1_0_0_1_n_n_wf none l r p q

/-! ## The table of squared distances -/

/-- THE TABLE: entry (r, m) of the kernel's 1024 × 4096 array is `blkDist r m`. -/
theorem pay4_apply (v0 : Vec Ideal S1x1024x3 .f32) (v2 : Vec Ideal S1x3x4096 .f32) (r : Fin 1024) (m : Fin 4096) :
    k0_pay4 (F := Ideal) v0 v2 (ix2 r m) = blkDist v0 v2 r m := by
  unfold k0_pay4 blkDist
  refine congrArg₂ (· + ·) (congrArg₂ (· + ·) ?_ ?_) ?_
  · -- the first cloud's squared norms, one per row
    refine (rowSum_repeat _ _ _ _ _ _ r m).trans (Finset.sum_congr rfl fun k _ => ?_)
    exact congrArg₂ (· * ·) (dropUnit_rows v0 _ r k) (dropUnit_rows v0 _ r k)
  · -- the second cloud's squared norms, one per column
    refine (colSum_repeat _ _ _ _ _ _ r m).trans (Finset.sum_congr rfl fun k _ => ?_)
    exact congrArg₂ (· * ·) (dropUnit_cols v2 _ k m) (dropUnit_cols v2 _ k m)
  · -- the cross term: −2 times the first point against the second
    refine (cross_apply _ _ r m).trans (Finset.sum_congr rfl fun k _ => ?_)
    exact congrArg₂ (· * ·) (congrArg (Ideal.ofBits .f32 0xC0000000#32 * ·) (dropUnit_rows v0 _ r k)) (dropUnit_cols v2 _ k m)

/-! ## The column minima and the row minima -/

/-- THE COLUMN MINIMA: entry (0, m) of the kernel's 1 × 4096 array is the minimum of column m of the table over the
    block's 1024 rows, folded from +∞. -/
theorem pay5_apply (v0 : Vec Ideal S1x1024x3 .f32) (v2 : Vec Ideal S1x3x4096 .f32) (m : Fin 4096) :
    k0_pay5 (F := Ideal) v0 v2 (ix2 (0 : Fin 1) m)
      = (Finset.univ : Finset (Fin 1024)).fold min pinf (fun r => blkDist v0 v2 r m) := by
  unfold k0_pay5
  refine (shapeCast_a_1a_apply _ _ (0 : Fin 1) m).trans ?_
  refine (Cert.LibColReduce.colMin_f32 _ _ _ _ m).trans ?_
  exact congrArg (fun f => (Finset.univ : Finset (Fin 1024)).fold min pinf f) (funext fun r => pay4_apply v0 v2 r m)

/-- The minimum of every row of a 1024 × 4096 array, kept as a column: at (p, 0), the minimum of row p folded from
    +∞. -/
theorem rowMin_column (t : FVec Ideal S1024x4096 .f32) (hr : S1024x4096.Reduces [1] S1024) (hφ : FKind.Formats .f32)
    (hacc : (0x7F800000#32 : BitVec 32) = 0x7F800000#32) (hc : S1024.ShapeCasts S1024x1) (p : Fin 1024) (u : Fin 1) :
    shapeCast S1024x1 (multiReduction .minimumf [1] S1024 t 0x7F800000#32 hr hφ hacc) hc (ix2 p u)
      = (Finset.univ : Finset (Fin 4096)).fold min pinf (fun q => t (ix2 p q)) :=
  (Cert.LibColumn.shapeCast_a_a1_apply _ hc p u).trans (Cert.LibRowMin.rowMin_f32 t hr hφ hacc p)

/-- A 1024 × 1 column summed down to one number, kept as a 1 × 1 array: the sum of the column's 1024 entries. -/
theorem colTotal (c : FVec Ideal S1024x1 .f32) (hr : S1024x1.Reduces [0] S1) (hφ : FKind.Formats .f32)
    (hacc : (0x00000000#32 : BitVec 32) = 0x00000000#32) (hc : S1.ShapeCasts S1x1) :
    shapeCast S1x1 (multiReduction .add [0] S1 c 0x00000000#32 hr hφ hacc) hc (ix2 (0 : Fin 1) (0 : Fin 1))
      = ∑ p : Fin 1024, c (ix2 p (0 : Fin 1)) :=
  (Cert.LibColumn.shapeCast_a_a1_apply _ hc (0 : Fin 1) (0 : Fin 1)).trans
    (Cert.LibColReduce.colSum_f32 c hr hφ hacc (0 : Fin 1))

/-- A 1 × 4096 row summed to one number, kept as a 1 × 1 array: the sum of the row's 4096 entries. -/
theorem rowTotal (w : FVec Ideal S1x4096 .f32) (hr : S1x4096.Reduces [1] S1) (hφ : FKind.Formats .f32)
    (hacc : (0x00000000#32 : BitVec 32) = 0x00000000#32) (hc : S1.ShapeCasts S1x1) :
    shapeCast S1x1 (multiReduction .add [1] S1 w 0x00000000#32 hr hφ hacc) hc (ix2 (0 : Fin 1) (0 : Fin 1))
      = ∑ q : Fin 4096, w (ix2 (0 : Fin 1) q) :=
  (Cert.LibColumn.shapeCast_a_a1_apply _ hc (0 : Fin 1) (0 : Fin 1)).trans
    (Cert.LibRowMin.rowSum_f32 w hr hφ hacc (0 : Fin 1))

/-- A 1 × 1 array has one index. -/
theorem idx_S1x1 (j : S1x1.Idx) : j = ix2 (0 : Fin 1) (0 : Fin 1) := by
  have h0 : j 0 = (0 : Fin 1) := Fin.ext (by have := idx2_lt0 j; show (j 0).val = 0; omega)
  have h1 : j 1 = (0 : Fin 1) := Fin.ext (by have := idx2_lt1 j; show (j 1).val = 0; omega)
  refine (eq_ix2 j).trans ?_
  rw [h0, h1]
  rfl

/-- THE ROW TOTAL: the kernel's new running total is the old one plus the sum, over the block's 1024 rows, of the
    row's minimum over all 4096 columns (folded from +∞). -/
theorem pay8_apply (v0 : Vec Ideal S1x1024x3 .f32) (v2 : Vec Ideal S1x3x4096 .f32) (v28 : Vec Ideal S1x1 .f32) :
    k0_pay8 (F := Ideal) v0 v2 v28 (ix2 (0 : Fin 1) (0 : Fin 1))
      = v28 (ix2 (0 : Fin 1) (0 : Fin 1))
        + ∑ r : Fin 1024, (Finset.univ : Finset (Fin 4096)).fold min pinf (fun m => blkDist v0 v2 r m) := by
  unfold k0_pay8
  refine congrArg₂ (· + ·) (congrFun (shapeCast_self v28 _) _) ?_
  refine (colTotal _ _ _ _ _).trans (Finset.sum_congr rfl fun r _ => ?_)
  refine (rowMin_column _ _ _ _ _ r (0 : Fin 1)).trans ?_
  exact congrArg (fun f => (Finset.univ : Finset (Fin 4096)).fold min pinf f) (funext fun m => pay4_apply v0 v2 r m)

/-- The same at any index of the 1 × 1 array. -/
theorem pay8_apply' (v0 : Vec Ideal S1x1024x3 .f32) (v2 : Vec Ideal S1x3x4096 .f32) (v28 : Vec Ideal S1x1 .f32)
    (j : S1x1.Idx) :
    k0_pay8 (F := Ideal) v0 v2 v28 j
      = v28 j + ∑ r : Fin 1024, (Finset.univ : Finset (Fin 4096)).fold min pinf (fun m => blkDist v0 v2 r m) := by
  rw [idx_S1x1 j]
  exact pay8_apply v0 v2 v28

/-! ## The running column minimum and its total -/

/-- The first block's column minima are stored as they are. -/
theorem pay1_eq (v22 : FVec Ideal S1x4096 .f32) : k0_pay1 (F := Ideal) v22 = v22 := by
  unfold k0_pay1
  exact shapeCast_self v22 _

/-- A later block's column minima are combined with the stored ones by `min`, entry by entry. -/
theorem pay2_apply (v22 : FVec Ideal S1x4096 .f32) (v43 : Vec Ideal S1x4096 .f32) (j : S1x4096.Idx) :
    k0_pay2 (F := Ideal) v22 v43 j = min (v43 j) (v22 j) := by
  unfold k0_pay2
  exact congrFun (shapeCast_self (minimumf v43 v22) _) j

/-- THE COLUMN TOTAL: after a batch's last block, the second running total grows by the sum of the 4096 stored column
    minima. -/
theorem pay3_apply (v43 : Vec Ideal S1x1 .f32) (v45 : Vec Ideal S1x4096 .f32) :
    k0_pay3 (F := Ideal) v43 v45 (ix2 (0 : Fin 1) (0 : Fin 1))
      = v43 (ix2 (0 : Fin 1) (0 : Fin 1)) + ∑ m : Fin 4096, v45 (ix2 (0 : Fin 1) m) := by
  unfold k0_pay3
  exact congrArg₂ (· + ·) (congrFun (shapeCast_self v43 _) _) (rowTotal v45 _ _ _ _)

/-- The same at any index of the 1 × 1 array. -/
theorem pay3_apply' (v43 : Vec Ideal S1x1 .f32) (v45 : Vec Ideal S1x4096 .f32) (j : S1x1.Idx) :
    k0_pay3 (F := Ideal) v43 v45 j = v43 j + ∑ m : Fin 4096, v45 (ix2 (0 : Fin 1) m) := by
  rw [idx_S1x1 j]
  exact pay3_apply v43 v45

/-! ## The zero the two running totals start from -/

/-- The first running total starts from the f32 zero word's value. -/
theorem pay6_apply (j : S1x1.Idx) : k0_pay6 (F := Ideal) j = zero := rfl

/-- And so does the second. -/
theorem pay7_apply (j : S1x1.Idx) : k0_pay7 (F := Ideal) j = zero := rfl

end Cert.KernelIdeal.Pay

end
-- ==== Proof.KV.Blocks.lean ====
/-
  The two blocks the body is handed at grid point t, as entries of the two clouds: block t of the first window is rows
  1024 (t % 4) … of batch t / 4 of the first cloud; block t of the second window is batch t / 4 of the second cloud with
  its last two axes exchanged (the program transposes it before the sweep).
-/
import proofs.«152712_g89532888252875_cont_sun_m_849_7_alg».proof.Proof.Gen.KernelIdeal.Frame
import proofs.«152712_g89532888252875_cont_sun_m_849_7_alg».proof.Proof.Spec
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.Val

open Cert.KernelIdeal Cert.KernelIdeal.Gen Cert.Chamfer
open Idealize.ShloMosaic Idealize.ShloMosaic.TcCoe Idealize.ShloMosaic.ValueIdx
open Idealize.SL Idealize.SL.Sem

variable (m : (ℓ : Loc nD τ sig) → Buf (Elt Ideal) ℓ)

/-- The first cloud. -/
abbrev cloudX (c : Dev nD) : Cloud := m ((c : Thread nD τ).loc main_arg0)
/-- The second cloud. -/
abbrev cloudY (c : Dev nD) : Cloud := m ((c : Thread nD τ).loc main_arg1)

/-- Where the first window's block sits at point t. -/
theorem idx0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
/-- Where the second window's block sits at point t. -/
theorem idx1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- The array the second window reads is the second cloud transposed. -/
theorem V_v0 (c : Dev nD) : (V m c main_v0 : S4x3x4096.Idx → EReal)
    = transpose S4x3x4096 [0, 2, 1] (cloudY m c) Facts₀.transposes_S4x4096x3_S4x3x4096_0_2_1 := by
  show StableHlo.after hostOps0 (fun b => m (c, b)) (Proc.devRef .tc main_v0) = _
  after_results

theorem blk0_apply (c : Dev nD) (t : Fin cfg0.N) (r : Fin 1024) (k : Fin 3) :
    iblk m c 0 t (ix3 0 r k) = cloudX m c (ix3 (batchOf t.val) (row (blockOf t.val) r) k) := by
  have hN : t.val < 16 := lt_of_lt_of_eq t.isLt (show cfg0.N = 16 from N_0)
  unfold iblk
  rw [View.read_apply]
  show V m c main_arg0 (((cfg0.win 0).blk t).view.emb (ix3 0 r k)) = _
  rw [V_main_arg0]
  refine congrArg _ (funext fun a => Fin.ext ?_)
  match a with
  | ⟨0, _⟩ =>
    show win0_0.index t 0 * 1 + 1 * 0 = (t.val / 4) % 4
    rw [(idx0 t).1]; omega
  | ⟨1, _⟩ =>
    show win0_0.index t 1 * 1024 + 1 * r.val = t.val % 4 * 1024 + r.val
    rw [(idx0 t).2.1]; omega
  | ⟨2, _⟩ =>
    show win0_0.index t 2 * 3 + 1 * k.val = k.val
    rw [(idx0 t).2.2]; omega

theorem blk1_apply (c : Dev nD) (t : Fin cfg0.N) (k : Fin 3) (q : Fin 4096) :
    iblk m c 1 t (ix3 0 k q) = cloudY m c (ix3 (batchOf t.val) q k) := by
  have hN : t.val < 16 := lt_of_lt_of_eq t.isLt (show cfg0.N = 16 from N_0)
  unfold iblk
  rw [View.read_apply]
  show V m c main_v0 (((cfg0.win 1).blk t).view.emb (ix3 0 k q)) = _
  rw [V_v0]
  refine transpose_apply _ _ _ _ _ fun b => ?_
  match b with
  | ⟨0, _⟩ =>
    show (t.val / 4) % 4 = win0_1.index t 0 * 1 + 1 * 0
    rw [(idx1 t).1]; omega
  | ⟨1, _⟩ =>
    show k.val = win0_1.index t 1 * 3 + 1 * k.val
    rw [(idx1 t).2.1]; omega
  | ⟨2, _⟩ =>
    show q.val = win0_1.index t 2 * 4096 + 1 * q.val
    rw [(idx1 t).2.2]; omega

end Cert.KernelIdeal.Val

end
-- ==== Proof.Sweep.lean ====
/-
  The 4 × 4 sweep as a recursion on the grid point, over a table of squared distances: the state carried from point to
  point is the first total, the second total and the running column minimum of the current batch.
    point 0                      : both totals start from the zero word; the first receives the block's row minima,
                                   the running minimum starts at the block's column minima;
    first block of a later batch : the first total receives the block's row minima, the running minimum restarts;
    a middle block               : the first total receives the block's row minima, the running minimum is lowered;
    last block of a batch        : the same, and the second total receives the sum over the columns of the lowered
                                   running minimum.
-/
import proofs.«152712_g89532888252875_cont_sun_m_849_7_alg».proof.Proof.Spec

noncomputable section

open scoped BigOperators

namespace Cert.Chamfer

/-- The carried state: first total, second total, running column minimum. -/
structure Sweep where
  rowTot : EReal
  colTot : EReal
  run : Fin 4096 → EReal

/-- After point 0. -/
def sweepFirst (d : Dist) : Sweep :=
  ⟨zero + rowPart d (batchOf 0) (blockOf 0), zero, fun q => colMinBlk d (batchOf 0) (blockOf 0) q⟩
/-- After the first block of a later batch (point `n`), over the state `p` before it. -/
def sweepStart (d : Dist) (n : ℕ) (p : Sweep) : Sweep :=
  ⟨p.rowTot + rowPart d (batchOf n) (blockOf n), p.colTot, fun q => colMinBlk d (batchOf n) (blockOf n) q⟩
/-- After a middle block. -/
def sweepMid (d : Dist) (n : ℕ) (p : Sweep) : Sweep :=
  ⟨p.rowTot + rowPart d (batchOf n) (blockOf n), p.colTot, fun q => min (p.run q) (colMinBlk d (batchOf n) (blockOf n) q)⟩
/-- After the last block of a batch. -/
def sweepLast (d : Dist) (n : ℕ) (p : Sweep) : Sweep :=
  ⟨p.rowTot + rowPart d (batchOf n) (blockOf n),
   p.colTot + ∑ q : Fin 4096, min (p.run q) (colMinBlk d (batchOf n) (blockOf n) q),
   fun q => min (p.run q) (colMinBlk d (batchOf n) (blockOf n) q)⟩

/-- The state after point `n`. -/
def sweepAt (d : Dist) : ℕ → Sweep
  | 0 => sweepFirst d
  | n + 1 =>
    if (n + 1) % 4 = 0 then sweepStart d (n + 1) (sweepAt d n)
    else if (n + 1) % 4 = 3 then sweepLast d (n + 1) (sweepAt d n)
    else sweepMid d (n + 1) (sweepAt d n)

end Cert.Chamfer

end
-- ==== Proof.KV.Steps.lean ====
/-
  The carried buffers, read as numbers, follow the sweep's recursion over the table of squared distances between the two
  clouds: the first total and the second total at their one entry, the running minimum column by column. Each case of the
  body is the matching step of the recursion — its stores are the body's arithmetic on the point's blocks, the blocks are
  rows and columns of the clouds, and the arithmetic read at an index is the row minima summed, the column minima, the
  lowered running minimum and its sum over the columns.
-/
import proofs.«152712_g89532888252875_cont_sun_m_849_7_alg».proof.Proof.KI.Pieces
import proofs.«152712_g89532888252875_cont_sun_m_849_7_alg».proof.Proof.Payload
import proofs.«152712_g89532888252875_cont_sun_m_849_7_alg».proof.Proof.KV.Blocks
import proofs.«152712_g89532888252875_cont_sun_m_849_7_alg».proof.Proof.Sweep

set_option maxRecDepth 16384

noncomputable section

open scoped BigOperators

namespace Cert.KernelIdeal.Val

open Cert.KernelIdeal Cert.KernelIdeal.Gen Cert.Chamfer
open Idealize.ShloMosaic Idealize.ShloMosaic.TcCoe Idealize.ShloMosaic.ValueIdx
open Idealize.SL Idealize.SL.Sem

variable (m : (ℓ : Loc nD τ sig) → Buf (Elt Ideal) ℓ)

open Cert.KernelIdeal.Body Cert.KernelIdeal.Pay

/-- The table of squared distances between the two clouds, as the blockwise side computes it. -/
abbrev dK (c : Dev nD) : Dist := kerDist (cloudX m c) (cloudY m c)

/-- The body's table on the blocks of point t is rows 1024 (t % 4) … of batch t / 4 of the clouds' table. -/
theorem blkDist_eq (c : Dev nD) (t : Fin cfg0.N) (r : Fin 1024) (q : Fin 4096) :
    blkDist (iblk m c 0 t) (iblk m c 1 t) r q = dK m c (batchOf t.val) (row (blockOf t.val) r) q := by
  simp only [blkDist, dK, kerDist, sqNorm, blk0_apply, blk1_apply]

theorem rowPart_eq (c : Dev nD) (t : Fin cfg0.N) :
    (∑ r : Fin 1024, (Finset.univ : Finset (Fin 4096)).fold min pinf (fun q => blkDist (iblk m c 0 t) (iblk m c 1 t) r q))
      = rowPart (dK m c) (batchOf t.val) (blockOf t.val) := by
  unfold rowPart rowMin
  simp only [blkDist_eq]

theorem colMinBlk_eq (c : Dev nD) (t : Fin cfg0.N) (q : Fin 4096) :
    (Finset.univ : Finset (Fin 1024)).fold min pinf (fun r => blkDist (iblk m c 0 t) (iblk m c 1 t) r q)
      = colMinBlk (dK m c) (batchOf t.val) (blockOf t.val) q := by
  unfold colMinBlk
  simp only [blkDist_eq]

/-- The carried buffers read as the recursion's state. -/
def toSweep (o : Outs Ideal) : Sweep := ⟨o.1 (ix2 0 0), o.2.1 (ix2 0 0), fun q => o.2.2 (ix2 0 q)⟩

/-- Every case adds the block's row minima to the first total. -/
theorem row_step (c : Dev nD) (t : Fin cfg0.N) (v : Vec Ideal S1x1 .f32) :
    k0_pay8 (F := Ideal) (iblk m c 0 t) (iblk m c 1 t) v (ix2 0 0) = v (ix2 0 0) + rowPart (dK m c) (batchOf t.val) (blockOf t.val) := by
  rw [pay8_apply (iblk m c 0 t) (iblk m c 1 t) v, rowPart_eq]

/-- The block's column minima. -/
theorem col_step (c : Dev nD) (t : Fin cfg0.N) (q : Fin 4096) :
    k0_pay5 (F := Ideal) (iblk m c 0 t) (iblk m c 1 t) (ix2 0 q) = colMinBlk (dK m c) (batchOf t.val) (blockOf t.val) q := by
  rw [pay5_apply (iblk m c 0 t) (iblk m c 1 t) q, colMinBlk_eq]

theorem toSweep_stepA (c : Dev nD) (t : Fin cfg0.N) (ht : t.val = 0) :
    toSweep (stepA m c t ht) = sweepFirst (dK m c) := by
  have e1 : (stepA m c t ht).1 (ix2 0 0) = zero + rowPart (dK m c) (batchOf 0) (blockOf 0) := by
    rw [stepA_1, row_step, pay6_apply, ht]
  have e2 : (stepA m c t ht).2.1 (ix2 0 0) = zero := by rw [stepA_2, pay7_apply]
  have e3 : ∀ q, (stepA m c t ht).2.2 (ix2 0 q) = colMinBlk (dK m c) (batchOf 0) (blockOf 0) q := fun q => by
    rw [stepA_S, pay1_eq, col_step, ht]
  unfold toSweep sweepFirst
  simp only [e1, e2, e3]

theorem toSweep_stepD (c : Dev nD) (t : Fin cfg0.N) (hz : ¬ t.val = 0) (h0 : t.val % 4 = 0) (p : Outs Ideal) :
    toSweep (stepD m c t hz h0 p) = sweepStart (dK m c) t.val (toSweep p) := by
  have e1 : (stepD m c t hz h0 p).1 (ix2 0 0) = p.1 (ix2 0 0) + rowPart (dK m c) (batchOf t.val) (blockOf t.val) := by
    rw [stepD_1, row_step]
  have e3 : ∀ q, (stepD m c t hz h0 p).2.2 (ix2 0 q) = colMinBlk (dK m c) (batchOf t.val) (blockOf t.val) q := fun q => by
    rw [stepD_S, pay1_eq, col_step]
  unfold toSweep sweepStart
  simp only [e1, e3, stepD_2]

theorem toSweep_stepB (c : Dev nD) (t : Fin cfg0.N) (h0 : ¬ t.val % 4 = 0) (h3 : ¬ t.val % 4 = 3) (p : Outs Ideal) :
    toSweep (stepB m c t h0 h3 p) = sweepMid (dK m c) t.val (toSweep p) := by
  have e1 : (stepB m c t h0 h3 p).1 (ix2 0 0) = p.1 (ix2 0 0) + rowPart (dK m c) (batchOf t.val) (blockOf t.val) := by
    rw [stepB_1, row_step]
  have e3 : ∀ q, (stepB m c t h0 h3 p).2.2 (ix2 0 q)
      = min (p.2.2 (ix2 0 q)) (colMinBlk (dK m c) (batchOf t.val) (blockOf t.val) q) := fun q => by
    rw [stepB_S, pay2_apply, col_step]
  unfold toSweep sweepMid
  simp only [e1, e3, stepB_2]

theorem toSweep_stepC (c : Dev nD) (t : Fin cfg0.N) (h3 : t.val % 4 = 3) (p : Outs Ideal) :
    toSweep (stepC m c t h3 p) = sweepLast (dK m c) t.val (toSweep p) := by
  have e1 : (stepC m c t h3 p).1 (ix2 0 0) = p.1 (ix2 0 0) + rowPart (dK m c) (batchOf t.val) (blockOf t.val) := by
    rw [stepC_1, row_step]
  have e3 : ∀ q, (stepC m c t h3 p).2.2 (ix2 0 q)
      = min (p.2.2 (ix2 0 q)) (colMinBlk (dK m c) (batchOf t.val) (blockOf t.val) q) := fun q => by
    rw [stepC_S, pay2_apply, col_step]
  have e2 : (stepC m c t h3 p).2.1 (ix2 0 0)
      = p.2.1 (ix2 0 0) + ∑ q : Fin 4096, min (p.2.2 (ix2 0 q)) (colMinBlk (dK m c) (batchOf t.val) (blockOf t.val) q) := by
    rw [stepC_2, pay3_apply]
    simp only [pay2_apply, col_step]
  unfold toSweep sweepLast
  simp only [e1, e2, e3]

/-- After every point the carried buffers are the recursion's state. -/
theorem toSweep_outsAt (c : Dev nD) : ∀ (n : ℕ) (hn : n < cfg0.N), toSweep (outsAt m c n hn) = sweepAt (dK m c) n := by
  intro n
  induction n with
  | zero => intro hn; exact (congrArg toSweep (outsAt_A m c ⟨0, hn⟩ rfl)).trans (toSweep_stepA m c ⟨0, hn⟩ rfl)
  | succ n ih =>
    intro hn
    have ih' := ih (Nat.lt_of_succ_lt hn)
    by_cases h0 : (n + 1) % 4 = 0
    · rw [show outsAt m c (n + 1) hn = _ from outsAt_D m c ⟨n + 1, hn⟩ (Nat.succ_ne_zero n) h0, toSweep_stepD]
      simp only [Nat.add_sub_cancel] at ih' ⊢
      rw [ih', sweepAt, if_pos h0]
    · by_cases h3 : (n + 1) % 4 = 3
      · rw [show outsAt m c (n + 1) hn = _ from outsAt_C m c ⟨n + 1, hn⟩ h3, toSweep_stepC]
        simp only [Nat.add_sub_cancel] at ih' ⊢
        rw [ih', sweepAt, if_neg h0, if_pos h3]
      · rw [show outsAt m c (n + 1) hn = _ from outsAt_B m c ⟨n + 1, hn⟩ h0 h3, toSweep_stepB]
        simp only [Nat.add_sub_cancel] at ih' ⊢
        rw [ih', sweepAt, if_neg h0, if_neg h3]

end Cert.KernelIdeal.Val

end
-- ==== Proof.KV.Final.lean ====
/-
  The end of the sweep.  The two totals live in 1 × 1 arrays that are written back once, after the last of the 16
  points, so each array ends holding what the last point left in its buffer; a 1 × 1 array has one index, so nothing
  has to be said about where the block sits.  After the sweep each total is read as a scalar and divided by 16384, and
  the two quotients are added: that sum is the program's result.
-/
import proofs.«152712_g89532888252875_cont_sun_m_849_7_alg».proof.Proof.KI.Outs
import proofs.«152712_g89532888252875_cont_sun_m_849_7_alg».proof.Proof.Spec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

open scoped BigOperators

namespace Cert.KernelIdeal.Val

open Cert.KernelIdeal Cert.KernelIdeal.Gen Cert.KernelIdeal.Body Cert.Chamfer
open Idealize.ShloMosaic Idealize.ShloMosaic.TcCoe Idealize.ShloMosaic.ValueIdx
open Idealize.SL Idealize.SL.Sem

variable (m : (ℓ : Loc nD τ sig) → Buf (Elt Ideal) ℓ)

/-- The sweep has a point 15, its last. -/
theorem h15 : 15 < cfg0.N := by rw [show cfg0.N = 16 from N_0]; decide

/-- A 1 × 1 array has one index. -/
theorem idx11_eq (i j : S1x1.Idx) : i = j := funext fun a => Fin.ext (by
  match a with
  | ⟨0, _⟩ =>
    show (i 0).val = (j 0).val
    have h1 : (i 0).val < 1 := (i 0).isLt
    have h2 : (j 0).val < 1 := (j 0).isLt
    omega
  | ⟨1, _⟩ =>
    show (i 1).val = (j 1).val
    have h1 : (i 1).val < 1 := (i 1).isLt
    have h2 : (j 1).val < 1 := (j 1).isLt
    omega)

/-- The one point whose number is 15 modulo 16 is point 15. -/
theorem last_of_flush (t : Fin cfg0.N) (h : t.val % 16 = 15) : t = ⟨15, h15⟩ :=
  Fin.ext (by have hN : t.val < 16 := lt_of_lt_of_eq t.isLt (show cfg0.N = 16 from N_0); show t.val = 15; omega)

/-! ## The first total's array -/

/-- What the last point writes back into the first total's array is that array's one block of what the point left. -/
theorem flushed2_eq (c : Dev nD) (t : Fin cfg0.N) (hf : (cfg0.win 2).flush t = true) :
    (dats m 0 c).flushed 2 t = ((cfg0.win 2).blk t).view.read (Elt Ideal) ((outsAt m c 15 h15).1) := by
  obtain rfl := last_of_flush t ((flush0_2 t).mp hf)
  show (cfg0.win 2).cut (grid0.coords _) ((dats m 0 c).after 2 _) = _
  rw [after_2]
  funext y
  rw [View.read_apply]
  show (outsAt m c 15 h15).1 y = (outsAt m c 15 h15).1 (((cfg0.win 2).blk ⟨15, h15⟩).view.emb y)
  exact congrArg _ (idx11_eq _ _)

/-- The array's one index is in the last point's block. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨⟨15, h15⟩, (flush0_2 _).mpr (by decide), ?_⟩
  have h := ((cfg0.win 2).blk ⟨15, h15⟩).view.emb_mem_set (ix2 0 0)
  rwa [idx11_eq (((cfg0.win 2).blk ⟨15, h15⟩).view.emb (ix2 0 0)) i] at h

/-- After the sweep the first total's array holds what the last point left in its buffer. -/
theorem final2 (c : Dev nD) : (dats m 0 c).arrAt 2 cfg0.N = (outsAt m c 15 h15).1 :=
  (dats m 0 c).arrAt_eq_of_cover 2 _ (fun t hf => flushed2_eq m c t hf) (cover2 c)

/-! ## The second total's array -/

/-- What the last point writes back into the second total's array is that array's one block of what the point left. -/
theorem flushed3_eq (c : Dev nD) (t : Fin cfg0.N) (hf : (cfg0.win 3).flush t = true) :
    (dats m 0 c).flushed 3 t = ((cfg0.win 3).blk t).view.read (Elt Ideal) ((outsAt m c 15 h15).2.1) := by
  obtain rfl := last_of_flush t ((flush0_3 t).mp hf)
  show (cfg0.win 3).cut (grid0.coords _) ((dats m 0 c).after 3 _) = _
  rw [after_3]
  funext y
  rw [View.read_apply]
  show (outsAt m c 15 h15).2.1 y = (outsAt m c 15 h15).2.1 (((cfg0.win 3).blk ⟨15, h15⟩).view.emb y)
  exact congrArg _ (idx11_eq _ _)

/-- The array's one index is in the last point's block. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨⟨15, h15⟩, (flush0_3 _).mpr (by decide), ?_⟩
  have h := ((cfg0.win 3).blk ⟨15, h15⟩).view.emb_mem_set (ix2 0 0)
  rwa [idx11_eq (((cfg0.win 3).blk ⟨15, h15⟩).view.emb (ix2 0 0)) i] at h

/-- After the sweep the second total's array holds what the last point left in its buffer. -/
theorem final3 (c : Dev nD) : (dats m 0 c).arrAt 3 cfg0.N = (outsAt m c 15 h15).2.1 :=
  (dats m 0 c).arrAt_eq_of_cover 3 _ (fun t hf => flushed3_eq m c t hf) (cover3 c)

/-! ## The operations after the sweep -/

/-- A 1 × 1 array read as a scalar is its one entry. -/
theorem scalar_of_11 (x : S1x1.Idx → EReal) (h : S1x1.ShapeCasts S_) (j : S_.Idx) : shapeCast S_ x h j = x (ix2 0 0) :=
  shapeCast_apply x h j (ix2 0 0) (by
    have h1 : (S1x1.rowMajor (ix2 0 0)).val < 1 := (S1x1.rowMajor (ix2 0 0)).isLt
    have h2 : (S_.rowMajor j).val < 1 := (S_.rowMajor j).isLt
    omega)

/-- The program's result: each total divided by 16384, added. -/
theorem tail_eq (c : Dev nD) : Pipeline.afterTail₀ cfgs (dats m) 0 (V0 m) [hostOps1] c main_v6
    = fun _ => Ideal.div ((outsAt m c 15 h15).1 (ix2 0 0)) c16384 + Ideal.div ((outsAt m c 15 h15).2.1 (ix2 0 0)) c16384 := by
  unfold Pipeline.afterTail₀
  show StableHlo.after hostOps1 _ (Proc.devRef .tc main_v6) = _
  after_results
  have e2 : Pipeline.withArrays (cfgs 0).spec c (V0 m c) (fun w => (dats m 0 c).arrAt w (cfgs 0).N) (Proc.devRef .tc main_v1_0)
      = (outsAt m c 15 h15).1 :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v1_1)
      = (outsAt m c 15 h15).2.1 :=
    (Pipeline.withArrays_arr spec0 launch0.win.arr_inj c _ _ 3).trans (final3 m c)
  rw [e2, e3]
  funext j
  show Ideal.div (shapeCast S_ ((outsAt m c 15 h15).1) shapeCasts_S1x1_S_ j) (Ideal.ofBits .f32 0x46800000#32)
      + Ideal.div (shapeCast S_ ((outsAt m c 15 h15).2.1) shapeCasts_S1x1_S_ j) (Ideal.ofBits .f32 0x46800000#32) = _
  rw [scalar_of_11, scalar_of_11]

end Cert.KernelIdeal.Val

end
-- ==== Proof.Totals.lean ====
/-
  The two ways of totalling a table of squared distances agree, and the two ways of writing the squared
  distance agree on real coordinates.

  Totals.  Sums in the extended reals are sums in a commutative monoid, so the sum over 4096 rows is the sum
  over 4 blocks of the sum over each block's 1024 rows (row `1024 i + r`), and the 16 grid points of the sweep
  are the pairs (batch, block).  A fold of `min` from +∞ is the infimum of a finite family, and the infimum
  over 4096 rows is the minimum of the four block infima.  Division by the real constants 4, 4096, 16384 is
  multiplication by a nonnegative real, which distributes over every extended-real sum (no finiteness of the
  summands is needed), and `1/4096 · 1/4 = 1/16384`.

  Distances.  With every coordinate real, both expressions are coercions of real numbers: the words of −2 and 2
  are evaluated, the coercion is pushed through the three-term sums, and the identity is closed in the reals.
-/
import proofs.«152712_g89532888252875_cont_sun_m_849_7_alg».proof.Proof.Spec

noncomputable section

open scoped BigOperators

namespace Cert.Chamfer.Totals

open Idealize.ShloMosaic Cert.Chamfer

/-! ### Rows of the batch as blocks of 1024 -/

/-- Every row lies in a block. -/
theorem exists_row (n : Fin 4096) : ∃ i r, n = row i r :=
  ⟨⟨n.val / 1024, by omega⟩, ⟨n.val % 1024, Nat.mod_lt _ (by decide)⟩, Fin.ext (by simp [row]; omega)⟩

/-- Block and row within the block, against the row of the batch. -/
def rowEquiv : Fin 4 × Fin 1024 ≃ Fin 4096 where
  toFun p := row p.1 p.2
  invFun n := (⟨n.val / 1024, by omega⟩, ⟨n.val % 1024, Nat.mod_lt _ (by decide)⟩)
  left_inv p := by
    rcases p with ⟨i, r⟩
    ext <;> simp [row] <;> omega
  right_inv n := by ext; simp [row]; omega

theorem sum_rows (f : Fin 4096 → EReal) : ∑ n, f n = ∑ i : Fin 4, ∑ r : Fin 1024, f (row i r) := by
  rw [← Equiv.sum_comp rowEquiv f, Fintype.sum_prod_type]; rfl

theorem inf_rows (f : Fin 4096 → EReal) :
    Finset.univ.inf f = Finset.univ.inf (fun i : Fin 4 => Finset.univ.inf (fun r : Fin 1024 => f (row i r))) := by
  apply le_antisymm
  · exact Finset.le_inf fun i _ => Finset.le_inf fun r _ => Finset.inf_le (Finset.mem_univ _)
  · refine Finset.le_inf fun n _ => ?_
    obtain ⟨i, r, rfl⟩ := exists_row n
    exact (Finset.inf_le (Finset.mem_univ i)).trans (Finset.inf_le (Finset.mem_univ r))

theorem min4_eq_inf (a : Fin 4 → EReal) : min (min (min (a 0) (a 1)) (a 2)) (a 3) = Finset.univ.inf a := by
  apply le_antisymm
  · refine Finset.le_inf fun i _ => ?_
    fin_cases i
    · exact (min_le_left _ _).trans ((min_le_left _ _).trans (min_le_left _ _))
    · exact (min_le_left _ _).trans ((min_le_left _ _).trans (min_le_right _ _))
    · exact (min_le_left _ _).trans (min_le_right _ _)
    · exact min_le_right _ _
  · exact le_min (le_min (le_min (Finset.inf_le (Finset.mem_univ _)) (Finset.inf_le (Finset.mem_univ _)))
      (Finset.inf_le (Finset.mem_univ _))) (Finset.inf_le (Finset.mem_univ _))

theorem sum_sweep (g : Fin 4 → Fin 4 → EReal) :
    ∑ s ∈ Finset.range 16, g (batchOf s) (blockOf s) = ∑ b : Fin 4, ∑ i : Fin 4, g b i := by
  simp only [Finset.sum_range_succ, Finset.sum_range_zero, Fin.sum_univ_four, zero_add, add_assoc]
  rfl

theorem sum_range4 (g : Fin 4 → EReal) : ∑ b ∈ Finset.range 4, g (fin4 b) = ∑ b : Fin 4, g b := by
  simp only [Finset.sum_range_succ, Finset.sum_range_zero, Fin.sum_univ_four, zero_add]
  rfl

theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-! ### The constants -/

theorem pinf_eq : pinf = ⊤ := by simp [pinf, Ideal.ofBits, Ideal.ieee]
theorem one_eq : one = ((1 : ℝ) : EReal) := by
  simp [one, Ideal.ofBits, Ideal.ieee, -EReal.coe_mul]; norm_num
theorem c4_eq : c4 = ((4 : ℝ) : EReal) := by simp [c4, Ideal.ofBits, Ideal.ieee, -EReal.coe_mul]; norm_num
theorem c4096_eq : c4096 = ((4096 : ℝ) : EReal) := by
  simp [c4096, Ideal.ofBits, Ideal.ieee, -EReal.coe_mul]; norm_num
theorem c16384_eq : c16384 = ((16384 : ℝ) : EReal) := by
  simp [c16384, Ideal.ofBits, Ideal.ieee, -EReal.coe_mul]; norm_num

theorem fold_min_eq_inf {ι : Type*} (s : Finset ι) (f : ι → EReal) : s.fold min pinf f = s.inf f := by
  rw [pinf_eq]; rfl

theorem colMin_eq_colAcc (d : Dist) (b : Fin 4) (m : Fin 4096) : colMin d b m = colAcc d b m := by
  unfold colMin colAcc colMinBlk
  simp only [fold_min_eq_inf]
  exact (inf_rows _).trans (min4_eq_inf _).symm

theorem sum_rowMin (d : Dist) (b : Fin 4) : ∑ n, rowMin d b n = ∑ i : Fin 4, rowPart d b i := by
  unfold rowPart; exact sum_rows _

theorem sweep_eq_whole (d : Dist) : sweepTotal d = wholeTotal d := by
  unfold sweepTotal wholeTotal
  rw [sum_sweep (fun b i => rowPart d b i), sum_range4 (colPart d)]
  simp only [c16384_eq, c4096_eq, c4_eq, one_eq, EReal.coe_one, one_mul,
    Ideal.div_coe (show (4096:ℝ) ≠ 0 by norm_num), Ideal.div_coe (show (16384:ℝ) ≠ 0 by norm_num),
    Ideal.div_coe (show (4:ℝ) ≠ 0 by norm_num)]
  have h1 : (0 : ℝ) ≤ 1 / 16384 := by norm_num
  have h2 : (0 : ℝ) ≤ 1 / 4 := by norm_num
  rw [sum_mul_coe _ _ h1, sum_mul_coe _ _ h1, sum_mul_coe _ _ h2, ← Finset.sum_add_distrib]
  refine Finset.sum_congr rfl fun b _ => ?_
  have h3 : (1 / 4096 : ℝ) * (1 / 4) = 1 / 16384 := by norm_num
  rw [EReal.right_distrib_of_nonneg_of_ne_top (by exact_mod_cast h2) (EReal.coe_ne_top _), mul_assoc, mul_assoc,
    ← EReal.coe_mul, h3, sum_rowMin]
  unfold colPart
  simp only [colMin_eq_colAcc]

/-! ### The squared distance, two ways

  On real coordinates both are the real number `|x|² + |y|² − 2 ⟨x, y⟩`: the one adds the inner product of
  `−2 x` with `y`, the other subtracts twice the inner product. -/

theorem neg2_eq : Ideal.ofBits .f32 0xC0000000#32 = ((-2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

theorem kerDist_eq_refDist (x y : Cloud) (hx : Finite x) (hy : Finite y) : kerDist x y = refDist x y := by
  funext b n m
  obtain ⟨a0, h0⟩ := hx (ValueIdx.ix3 b n 0)
  obtain ⟨a1, h1⟩ := hx (ValueIdx.ix3 b n 1)
  obtain ⟨a2, h2⟩ := hx (ValueIdx.ix3 b n 2)
  obtain ⟨b0, g0⟩ := hy (ValueIdx.ix3 b m 0)
  obtain ⟨b1, g1⟩ := hy (ValueIdx.ix3 b m 1)
  obtain ⟨b2, g2⟩ := hy (ValueIdx.ix3 b m 2)
  simp only [kerDist, refDist, sqNorm, Fin.sum_univ_three, h0, h1, h2, g0, g1, g2, neg2_eq, two_eq]
  simp only [← EReal.coe_mul, ← EReal.coe_add, ← EReal.coe_sub]
  congr 1
  ring

end Cert.Chamfer.Totals

end
-- ==== Proof.SweepTotal.lean ====
/-
  The sweep's recursion ends at the blockwise total.

  Three invariants of the state after grid point `n`, by induction on `n`:
  * the first total is the zero word plus the row parts of the points `0..n`;
  * the running minimum is that of the point's batch after its blocks `0..n % 4`;
  * the second total is the zero word plus the column parts of the batches completed so far, `(n + 1) / 4` of
    them: a batch is completed exactly at a point with `n % 4 = 3`, where the running minimum after four blocks
    is the batch's column minimum in the blockwise bracketing.
  At the last point, 15, these are the two sums of the blockwise total.
-/
import proofs.«152712_g89532888252875_cont_sun_m_849_7_alg».proof.Proof.Sweep
import proofs.«152712_g89532888252875_cont_sun_m_849_7_alg».proof.Proof.Totals

noncomputable section

open scoped BigOperators

namespace Cert.Chamfer.SweepTotal

open Idealize.ShloMosaic Cert.Chamfer

/-- The running column minimum of batch `b` after its blocks `0..k`. -/
def colRun (d : Dist) (b : Fin 4) : ℕ → Fin 4096 → EReal
  | 0 => colMinBlk d b 0
  | k + 1 => fun q => min (colRun d b k q) (colMinBlk d b (fin4 (k + 1)) q)

/-- After all four blocks the running minimum is the blockwise column minimum. -/
theorem colRun_three (d : Dist) (b : Fin 4) : colRun d b 3 = colAcc d b := by
  funext q; rfl

/-! ### Batch and block of consecutive grid points -/

theorem batchOf_succ {n : ℕ} (h : (n + 1) % 4 ≠ 0) : batchOf (n + 1) = batchOf n := by
  apply Fin.ext; show (n + 1) / 4 % 4 = n / 4 % 4; omega

theorem blockOf_succ {n : ℕ} (h : (n + 1) % 4 ≠ 0) : blockOf (n + 1) = fin4 (n % 4 + 1) := by
  apply Fin.ext; show (n + 1) % 4 = (n % 4 + 1) % 4; omega

theorem blockOf_zero {n : ℕ} (h : n % 4 = 0) : blockOf n = 0 := by
  apply Fin.ext; show n % 4 = 0; exact h

/-! ### One step of the recursion -/

theorem rowTot_succ (d : Dist) (n : ℕ) :
    (sweepAt d (n + 1)).rowTot = (sweepAt d n).rowTot + rowPart d (batchOf (n + 1)) (blockOf (n + 1)) := by
  simp only [sweepAt]; split_ifs <;> rfl

theorem run_succ_start (d : Dist) {n : ℕ} (h : (n + 1) % 4 = 0) :
    (sweepAt d (n + 1)).run = fun q => colMinBlk d (batchOf (n + 1)) (blockOf (n + 1)) q := by
  simp only [sweepAt, if_pos h]; rfl

theorem run_succ (d : Dist) {n : ℕ} (h : (n + 1) % 4 ≠ 0) :
    (sweepAt d (n + 1)).run
      = fun q => min ((sweepAt d n).run q) (colMinBlk d (batchOf (n + 1)) (blockOf (n + 1)) q) := by
  simp only [sweepAt, if_neg h]; split_ifs <;> rfl

theorem colTot_succ_last (d : Dist) {n : ℕ} (h : (n + 1) % 4 = 3) :
    (sweepAt d (n + 1)).colTot = (sweepAt d n).colTot + ∑ q : Fin 4096, (sweepAt d (n + 1)).run q := by
  have h0 : (n + 1) % 4 ≠ 0 := by omega
  rw [run_succ d h0]
  simp only [sweepAt, if_neg h0, if_pos h]; rfl

theorem colTot_succ (d : Dist) {n : ℕ} (h : (n + 1) % 4 ≠ 3) :
    (sweepAt d (n + 1)).colTot = (sweepAt d n).colTot := by
  simp only [sweepAt]; split_ifs <;> rfl

/-! ### The invariants -/

theorem rowTot_eq (d : Dist) (n : ℕ) :
    (sweepAt d n).rowTot = zero + ∑ s ∈ Finset.range (n + 1), rowPart d (batchOf s) (blockOf s) := by
  induction n with
  | zero =>
    rw [Finset.sum_range_succ, Finset.sum_range_zero, zero_add]; rfl
  | succ n ih => rw [rowTot_succ, ih, Finset.sum_range_succ _ (n + 1), add_assoc]

theorem run_eq (d : Dist) (n : ℕ) : (sweepAt d n).run = colRun d (batchOf n) (n % 4) := by
  induction n with
  | zero => rfl
  | succ n ih =>
    by_cases h0 : (n + 1) % 4 = 0
    · rw [run_succ_start d h0, h0, blockOf_zero h0]; rfl
    · have hm : (n + 1) % 4 = n % 4 + 1 := by omega
      rw [run_succ d h0, ih, hm, batchOf_succ h0, blockOf_succ h0]; rfl

theorem colTot_eq (d : Dist) (n : ℕ) :
    (sweepAt d n).colTot = zero + ∑ b ∈ Finset.range ((n + 1) / 4), colPart d (fin4 b) := by
  induction n with
  | zero =>
    show zero = zero + ∑ b ∈ Finset.range 0, colPart d (fin4 b)
    rw [Finset.sum_range_zero, add_zero]
  | succ n ih =>
    by_cases h3 : (n + 1) % 4 = 3
    · have hd : (n + 1 + 1) / 4 = (n + 1) / 4 + 1 := by omega
      rw [colTot_succ_last d h3, ih, run_eq, h3, colRun_three, hd, Finset.sum_range_succ, add_assoc]; rfl
    · have hd : (n + 1 + 1) / 4 = (n + 1) / 4 := by omega
      rw [colTot_succ d h3, ih, hd]

/-! ### The end of the sweep -/

theorem zero_eq : zero = 0 := Ideal.ofBits_zero_f32

theorem sweepAt_total (d : Dist) :
    Ideal.div (sweepAt d 15).rowTot c16384 + Ideal.div (sweepAt d 15).colTot c16384 = sweepTotal d := by
  rw [rowTot_eq, colTot_eq, zero_eq, zero_add, zero_add]; rfl

theorem sweepAt_eq_whole (d : Dist) :
    Ideal.div (sweepAt d 15).rowTot c16384 + Ideal.div (sweepAt d 15).colTot c16384 = wholeTotal d :=
  (sweepAt_total d).trans (Totals.sweep_eq_whole d)

end Cert.Chamfer.SweepTotal

end
-- ==== Proof.KV.Run.lean ====
/-
  The blockwise program's result: every execution ends with the result buffer at the whole-array total of the table of
  squared distances between the two clouds (as the blockwise side computes that table), and with the two clouds
  unchanged. The result buffer is what the operations after the sweep make of the two totals (each divided by 16384, the
  quotients added); the totals after the last point are the recursion's (the carried buffers follow it point by point),
  and the recursion ends at the blockwise total, which is the whole-array total.
-/
import proofs.«152712_g89532888252875_cont_sun_m_849_7_alg».proof.Proof.KI.Sound
import proofs.«152712_g89532888252875_cont_sun_m_849_7_alg».proof.Proof.KV.Steps
import proofs.«152712_g89532888252875_cont_sun_m_849_7_alg».proof.Proof.KV.Final
import proofs.«152712_g89532888252875_cont_sun_m_849_7_alg».proof.Proof.SweepTotal

set_option maxRecDepth 16384

noncomputable section

open scoped BigOperators

namespace Cert.KernelIdeal.Val

open Cert.KernelIdeal Cert.KernelIdeal.Gen Cert.Chamfer
open Idealize.ShloMosaic Idealize.ShloMosaic.TcCoe Idealize.ShloMosaic.ValueIdx
open Idealize.SL Idealize.SL.Sem

variable (m : (ℓ : Loc nD τ sig) → Buf (Elt Ideal) ℓ)

open Cert.KernelIdeal.Body

/-- The result, from the two totals after the last point. -/
theorem result_eq (c : Dev nD) :
    Pipeline.afterTail₀ cfgs (dats m) 0 (V0 m) [hostOps1] c main_v6 = fun _ => wholeTotal (dK m c) := by
  rw [tail_eq]
  funext _
  have e := toSweep_outsAt m c 15 h15
  have e1 : (outsAt m c 15 h15).1 (ix2 0 0) = (sweepAt (dK m c) 15).rowTot := congrArg Sweep.rowTot e
  have e2 : (outsAt m c 15 h15).2.1 (ix2 0 0) = (sweepAt (dK m c) 15).colTot := congrArg Sweep.colTot e
  rw [e1, e2]
  exact Cert.Chamfer.SweepTotal.sweepAt_eq_whole (dK m c)

variable (ρ : Dev nD → PrngReg)

/-- Every weakly fair execution of the blockwise program terminates with the result at the whole-array total and the
    two clouds unchanged. -/
theorem run : θ_run (defs (F := Ideal)) (onTc (τ := τ) (main (F := Ideal))) ⟨m, fun _ => 0, ρ⟩ (fun r => ∀ c : Dev nD,
      r.2.mem ((c.tc : Thread nD τ).loc main_v6) = (fun _ => wholeTotal (dK m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (result_eq m c),
     ((h c).1 0).trans ((((dats m) 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Val

end
-- ==== Proof.RefTotal.lean ====
/-
  The whole-array program read back as mathematics.

  The program takes two clouds x, y of 4 batches of 4096 points in three coordinates and computes, batch by batch,
  the table d b n m = (|x_n|² + |y_m|²) − 2·⟨x_n, y_m⟩ of squared distances, the minimum of every row and of every
  column of it (each a fold of min from +∞), the mean of the row minima plus the mean of the column minima, and
  the mean of that over the batches.  Stage by stage each array the program writes is identified, index by index,
  with the function the specification names for it: the squared norms, the inner products, the table `refDist`, the
  row minima `rowMin`, the column minima `colMin`, the two means, and at the end `wholeTotal`.
-/
import proofs.«152712_g89532888252875_cont_sun_m_849_7_alg».proof.Defs
import proofs.«152712_g89532888252875_cont_sun_m_849_7_alg».proof.Proof.Gen.ReferenceIdeal
import proofs.«152712_g89532888252875_cont_sun_m_849_7_alg».proof.Proof.Gen.Pre_finite_inputs
import proofs.«152712_g89532888252875_cont_sun_m_849_7_alg».proof.Proof.Gen.ReferenceIdeal.Read
import proofs.«152712_g89532888252875_cont_sun_m_849_7_alg».proof.Proof.Spec
import proofs.«152712_g89532888252875_cont_sun_m_849_7_alg».proof.Proof.LibColumn
import proofs.«152712_g89532888252875_cont_sun_m_849_7_alg».proof.Proof.LibRowReduce
import proofs.«152712_g89532888252875_cont_sun_m_849_7_alg».proof.Proof.LibRowMin
import proofs.«152712_g89532888252875_cont_sun_m_849_7_alg».proof.Proof.LibPlainDot
import Idealize.ShloMosaic.Lib.ValueIdx
import Idealize.ShloMosaic.Lib.Pipeline.Value
import Idealize.ShloMosaic.PureOps.Ideal.Laws
import Idealize.ShloMosaic.Lib.StableHlo.Run

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Chamfer

/-! ## Indices: the program's composed index functions are the coordinate constructors -/

/-- Point `n` of batch `b` with coordinate `k` put back (first cloud's squared norm). -/
theorem idx_v1_eq (b : Fin 4) (n : Fin 4096) (k : Fin 3) : idx_main_v1 (ix2 b n) k = ix3 b n k :=
  funext fun a => Fin.ext (by match a with | ⟨0, _⟩ => rfl | ⟨1, _⟩ => rfl | ⟨2, _⟩ => rfl)

/-- The same for the second cloud's squared norm. -/
theorem idx_v3_eq (b : Fin 4) (n : Fin 4096) (k : Fin 3) : idx_main_v3 (ix2 b n) k = ix3 b n k :=
  funext fun a => Fin.ext (by match a with | ⟨0, _⟩ => rfl | ⟨1, _⟩ => rfl | ⟨2, _⟩ => rfl)

/-- The inner product at (b, n, m) reads the first cloud at point n … -/
theorem lidx_v4_eq (b : Fin 4) (n m : Fin 4096) (k : Fin 3) : lidx_main_v4 (ix3 b n m) k = ix3 b n k :=
  funext fun a => Fin.ext (by match a with | ⟨0, _⟩ => rfl | ⟨1, _⟩ => rfl | ⟨2, _⟩ => rfl)

/-- … and the second cloud at point m. -/
theorem ridx_v4_eq (b : Fin 4) (n m : Fin 4096) (k : Fin 3) : ridx_main_v4 (ix3 b n m) k = ix3 b m k :=
  funext fun a => Fin.ext (by match a with | ⟨0, _⟩ => rfl | ⟨1, _⟩ => rfl | ⟨2, _⟩ => rfl)

/-- The column of row norms repeated along the columns reads, at (b, n, m), entry (b, n). -/
theorem idx_v57_eq (b : Fin 4) (n m : Fin 4096) : idx_main_v5 (idx_main_v7 (ix3 b n m)) = ix2 b n :=
  funext fun a => Fin.ext (by match a with | ⟨0, _⟩ => rfl | ⟨1, _⟩ => rfl)

/-- The row of column norms repeated along the rows reads, at (b, n, m), entry (b, m). -/
theorem idx_v68_eq (b : Fin 4) (n m : Fin 4096) : idx_main_v6 (idx_main_v8 (ix3 b n m)) = ix2 b m :=
  funext fun a => Fin.ext (by match a with | ⟨0, _⟩ => rfl | ⟨1, _⟩ => rfl)

/-- Batch `b` with point `k` put back (the sum of the row minima). -/
theorem idx_v15_eq (b : Fin 4) (k : Fin 4096) : idx_main_v15 (ix1 b) k = ix2 b k :=
  funext fun a => Fin.ext (by match a with | ⟨0, _⟩ => rfl | ⟨1, _⟩ => rfl)

/-- The same for the sum of the column minima. -/
theorem idx_v18_eq (b : Fin 4) (k : Fin 4096) : idx_main_v18 (ix1 b) k = ix2 b k :=
  funext fun a => Fin.ext (by match a with | ⟨0, _⟩ => rfl | ⟨1, _⟩ => rfl)

/-! ## The squared norms, the inner products, the distance table -/

/-- The first cloud's squared norms. -/
theorem v1_apply (x : FVec Ideal S4x4096x3 .f32) (b : Fin 4) (n : Fin 4096) :
    val_main_v1 (F := Ideal) x (ix2 b n) = sqNorm x b n := by
  rw [val_main_v1_apply]
  simp only [val_main_cst_apply, val_main_v0_apply, idx_v1_eq, Ideal.mulf_def, Ideal.ofBits_def, Ideal.ofBits_zero_f32, zero_add]
  rfl

/-- The second cloud's squared norms. -/
theorem v3_apply (y : FVec Ideal S4x4096x3 .f32) (b : Fin 4) (n : Fin 4096) :
    val_main_v3 (F := Ideal) y (ix2 b n) = sqNorm y b n := by
  rw [val_main_v3_apply]
  simp only [val_main_cst_0_apply, val_main_v2_apply, idx_v3_eq, Ideal.mulf_def, Ideal.ofBits_def, Ideal.ofBits_zero_f32, zero_add]
  rfl

/-- The inner products. -/
theorem v4_apply (x y : FVec Ideal S4x4096x3 .f32) (b : Fin 4) (n m : Fin 4096) :
    val_main_v4 (F := Ideal) x y (ix3 b n m) = ∑ k : Fin 3, x (ix3 b n k) * y (ix3 b m k) := by
  rw [val_main_v4_apply]
  simp only [lidx_v4_eq, ridx_v4_eq]

/-- The table of squared distances: the two squared norms minus twice the inner product. -/
theorem v12_apply (x y : FVec Ideal S4x4096x3 .f32) (b : Fin 4) (n m : Fin 4096) :
    val_main_v12 (F := Ideal) x y (ix3 b n m) = refDist x y b n m := by
  rw [val_main_v12_apply, val_main_v9_apply, val_main_v11_apply, val_main_v7_apply, val_main_v5_apply, val_main_v8_apply,
    val_main_v6_apply, val_main_v10_apply, val_main_cst_1_apply, idx_v57_eq, idx_v68_eq, v1_apply, v3_apply, v4_apply]
  simp only [Ideal.subf_def, Ideal.addf_def, Ideal.mulf_def, Ideal.ofBits_def]
  rfl

/-! ## The two minima -/

/-- Entry (b, n) of the row minima with column `m` put back is (b, n, m). -/
theorem lift_d2 (h : S4x4096x4096.Reduces [2] S4x4096) (b : Fin 4) (n m : Fin 4096) : h.lift (ix2 b n) m = ix3 b n m := by
  funext c
  apply Fin.ext
  match c with
  | ⟨0, _⟩ => rfl
  | ⟨1, _⟩ => rfl
  | ⟨2, _⟩ => rfl

/-- Entry (b, m) of the column minima with row `n` put back is (b, n, m). -/
theorem lift_d1 (h : S4x4096x4096.Reduces [1] S4x4096) (b : Fin 4) (m n : Fin 4096) : h.lift (ix2 b m) n = ix3 b n m := by
  funext c
  apply Fin.ext
  match c with
  | ⟨0, _⟩ => rfl
  | ⟨1, _⟩ => rfl
  | ⟨2, _⟩ => rfl

/-- The minimum along the columns, from +∞: the row minima of the table. -/
theorem v13_apply (x y : FVec Ideal S4x4096x3 .f32) (b : Fin 4) (n : Fin 4096) :
    val_main_v13 (F := Ideal) x y (ix2 b n) = rowMin (refDist x y) b n := by
  have h : S4x4096x4096.Reduces [2] S4x4096 := by decide
  unfold val_main_v13
  refine (Host.reduce_eq_fold_single FloatOps.minimumf _ _ reducesTo_S4x4096x4096_S4x4096_d2 h h_S_ (ix2 b n)).trans ?_
  exact congrArg (fun f => (Finset.univ : Finset (Fin 4096)).fold min pinf f)
    (funext fun m => (congrArg (val_main_v12 (F := Ideal) x y) (lift_d2 h b n m)).trans (v12_apply x y b n m))

/-- The minimum along the rows, from +∞: the column minima of the table. -/
theorem v14_apply (x y : FVec Ideal S4x4096x3 .f32) (b : Fin 4) (m : Fin 4096) :
    val_main_v14 (F := Ideal) x y (ix2 b m) = colMin (refDist x y) b m := by
  have h : S4x4096x4096.Reduces [1] S4x4096 := by decide
  unfold val_main_v14
  refine (Host.reduce_eq_fold_single FloatOps.minimumf _ _ reducesTo_S4x4096x4096_S4x4096_d1 h h_S_ (ix2 b m)).trans ?_
  exact congrArg (fun f => (Finset.univ : Finset (Fin 4096)).fold min pinf f)
    (funext fun n => (congrArg (val_main_v12 (F := Ideal) x y) (lift_d1 h b m n)).trans (v12_apply x y b n m))

/-! ## The two means and their sum, batch by batch -/

/-- The mean of the row minima of batch `b`. -/
theorem v17_apply (x y : FVec Ideal S4x4096x3 .f32) (b : Fin 4) :
    val_main_v17 (F := Ideal) x y (ix1 b) = Ideal.div (∑ n : Fin 4096, rowMin (refDist x y) b n) c4096 := by
  rw [val_main_v17_apply, val_main_v15_apply, val_main_v16_apply, val_main_cst_5_apply, val_main_cst_4_apply]
  simp only [idx_v15_eq, v13_apply, Ideal.hostDivf_def, Ideal.ofBits_def, Ideal.ofBits_zero_f32, zero_add]

/-- The mean of the column minima of batch `b`. -/
theorem v20_apply (x y : FVec Ideal S4x4096x3 .f32) (b : Fin 4) :
    val_main_v20 (F := Ideal) x y (ix1 b) = Ideal.div (∑ m : Fin 4096, colMin (refDist x y) b m) c4096 := by
  rw [val_main_v20_apply, val_main_v18_apply, val_main_v19_apply, val_main_cst_7_apply, val_main_cst_6_apply]
  simp only [idx_v18_eq, v14_apply, Ideal.hostDivf_def, Ideal.ofBits_def, Ideal.ofBits_zero_f32, zero_add]

/-- One times the first mean plus the second. -/
theorem v23_apply (x y : FVec Ideal S4x4096x3 .f32) (b : Fin 4) :
    val_main_v23 (F := Ideal) x y (ix1 b)
      = one * Ideal.div (∑ n : Fin 4096, rowMin (refDist x y) b n) c4096
        + Ideal.div (∑ m : Fin 4096, colMin (refDist x y) b m) c4096 := by
  rw [val_main_v23_apply, val_main_v22_apply, val_main_v21_apply, val_main_cst_8_apply, v17_apply, v20_apply]
  simp only [Ideal.addf_def, Ideal.mulf_def, Ideal.ofBits_def]

/-! ## The mean over the batches -/

/-- The indices of a length-4 vector are the four batches. -/
def batchEquiv : Fin 4 ≃ S4.Idx where
  toFun := ix1
  invFun j := j 0
  left_inv _ := rfl
  right_inv j := (eq_ix1 j).symm

/-- A sum over the indices of a length-4 vector is the sum over the four batches. -/
theorem sum_batches (f : S4.Idx → EReal) : ∑ j : S4.Idx, f j = ∑ b : Fin 4, f (ix1 b) :=
  (Equiv.sum_comp batchEquiv f).symm

/-- The program's last array, at its one index: the whole-array total of the table. -/
theorem v25_apply (x y : FVec Ideal S4x4096x3 .f32) (i : S_.Idx) :
    val_main_v25 (F := Ideal) x y i = wholeTotal (refDist x y) := by
  rw [val_main_v25_apply, val_main_v24_apply, val_main_cst_10_apply, val_main_cst_9_apply, sum_batches]
  simp only [v23_apply, Ideal.hostDivf_def, Ideal.ofBits_def, Ideal.ofBits_zero_f32, zero_add]
  rfl

/-- The program's last stage is the constant array at the whole-array total of the table of squared distances. -/
theorem result_eq_val (x y : FVec Ideal S4x4096x3 .f32) :
    val_main_v25 (F := Ideal) x y = fun _ => wholeTotal (refDist x y) :=
  funext fun i => v25_apply x y i

/-- The term the program's run leaves in its result, as a function of the two clouds, is the constant array at the
    whole-array total of the table of squared distances. -/
theorem result_eq (x y : FVec Ideal S4x4096x3 .f32) :
    Host.divf (Host.reduceAdd (addf (mulf (broadcastInDim S4 ![] bcast_S_S4 (constant S_ .f32 0x3F800000#32)) (Host.divf (Host.reduceAdd (Host.reduce FloatOps.minimumf (subf (addf (broadcastInDim S4x4096x4096 ![0, 1, 2] bcast_S4x4096x1_S4x4096x4096_0_1_2 (broadcastInDim S4x4096x1 ![0, 1] bcast_S4x4096_S4x4096x1_0_1 (Host.reduceAdd (mulf x x) (constant S_ .f32 0x00000000#32) reducesTo_S4x4096x3_S4x4096_d2 h_S_))) (broadcastInDim S4x4096x4096 ![0, 1, 2] bcast_S4x1x4096_S4x4096x4096_0_1_2 (broadcastInDim S4x1x4096 ![0, 2] bcast_S4x4096_S4x1x4096_0_2 (Host.reduceAdd (mulf y y) (constant S_ .f32 0x00000000#32) reducesTo_S4x4096x3_S4x4096_d2 h_S_)))) (mulf (broadcastInDim S4x4096x4096 ![] bcast_S_S4x4096x4096 (constant S_ .f32 0x40000000#32)) (Host.dotGeneral dot_S4x4096x3_S4x4096x3_S4x4096x4096_2_2_1_1_0_0 none x y))) (constant S_ .f32 0x7F800000#32) reducesTo_S4x4096x4096_S4x4096_d2 h_S_) (constant S_ .f32 0x00000000#32) reducesTo_S4x4096_S4_d1 h_S_) (broadcastInDim S4 ![] bcast_S_S4 (constant S_ .f32 0x45800000#32)))) (Host.divf (Host.reduceAdd (Host.reduce FloatOps.minimumf (subf (addf (broadcastInDim S4x4096x4096 ![0, 1, 2] bcast_S4x4096x1_S4x4096x4096_0_1_2 (broadcastInDim S4x4096x1 ![0, 1] bcast_S4x4096_S4x4096x1_0_1 (Host.reduceAdd (mulf x x) (constant S_ .f32 0x00000000#32) reducesTo_S4x4096x3_S4x4096_d2 h_S_))) (broadcastInDim S4x4096x4096 ![0, 1, 2] bcast_S4x1x4096_S4x4096x4096_0_1_2 (broadcastInDim S4x1x4096 ![0, 2] bcast_S4x4096_S4x1x4096_0_2 (Host.reduceAdd (mulf y y) (constant S_ .f32 0x00000000#32) reducesTo_S4x4096x3_S4x4096_d2 h_S_)))) (mulf (broadcastInDim S4x4096x4096 ![] bcast_S_S4x4096x4096 (constant S_ .f32 0x40000000#32)) (Host.dotGeneral dot_S4x4096x3_S4x4096x3_S4x4096x4096_2_2_1_1_0_0 none x y))) (constant S_ .f32 0x7F800000#32) reducesTo_S4x4096x4096_S4x4096_d1 h_S_) (constant S_ .f32 0x00000000#32) reducesTo_S4x4096_S4_d1 h_S_) (broadcastInDim S4 ![] bcast_S_S4 (constant S_ .f32 0x45800000#32)))) (constant S_ .f32 0x00000000#32) reducesTo_S4_S_d0 h_S_) (constant S_ .f32 0x40800000#32)
      = fun _ => wholeTotal (refDist x y) :=
  (val_main_v25_eq (F := Ideal) x y).trans (result_eq_val x y)

/-! ## The run and the frame -/

/-- Every weakly fair execution of the program terminates with its result at the whole-array total of the table of
    squared distances of its two arguments, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v25)
          = (fun _ => wholeTotal (refDist (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono (fun _ h c => ⟨(h c).1.trans (result_eq _ _), (h c).2⟩)
    (Cert.ReferenceIdeal.Value.run (F := Ideal) m ρ)

/-- The program runs and leaves its arguments unchanged. -/
theorem frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.FiniteInputs.lean ====
/-
  From the certificate's precondition to "every input coordinate is a real number".

  The precondition says, of each of the two input clouds, that every coordinate's absolute value is below the f32 word
  of +∞, the two statements joined by "and". Over the extended reals that word is ⊤, the absolute value of z is
  max z (−z), and an extended real whose absolute value is below ⊤ is neither ⊤ nor ⊥: it is a real number.
-/
import proofs.«152712_g89532888252875_cont_sun_m_849_7_alg».proof.Pre_finite_inputs
import proofs.«152712_g89532888252875_cont_sun_m_849_7_alg».proof.Proof.Spec
import Idealize.ShloMosaic.Lib.ReduceAll
import Idealize.ShloMosaic.Lib.ValueIdx

noncomputable section

namespace Cert.KernelIdeal.Fin

open Cert.Chamfer Idealize.ShloMosaic Idealize.ShloMosaic.ValueIdx

/-- The scalar shape has one index. -/
instance : Subsingleton Cert.Pre_finite_inputs.S_.Idx := ⟨fun a b => funext fun d => d.elim0⟩

/-- The f32 word of +∞ is ⊤. -/
theorem pinf_eq_top : Ideal.ofBits .f32 0x7F800000#32 = (⊤ : EReal) := by
  simp [Ideal.ofBits, Ideal.ieee]

/-- An extended real whose absolute value compares below the word of +∞ is a real number. -/
theorem real_of_abs_lt_pinf (z : EReal)
    (hz : Ideal.cmp .olt (max z (-z)) (Ideal.ofBits .f32 0x7F800000#32) = 1#1) : ∃ r : ℝ, z = (r : EReal) := by
  rw [pinf_eq_top] at hz
  have hlt : max z (-z) < ⊤ := by
    by_contra hn
    simp [Ideal.cmp, hn] at hz
  induction z using EReal.rec with
  | bot => simp at hlt
  | coe r => exact ⟨r, rfl⟩
  | top => simp at hlt

/-- THE PRECONDITION READ BACK: if the finiteness predicate of the two input clouds is all ones, every coordinate of
    each cloud is a real number. -/
theorem finite_of_pre [Cert.Pre_finite_inputs.Facts] (x y : FVec Ideal Cert.Pre_finite_inputs.S4x4096x3 .f32)
    (h : Cert.Pre_finite_inputs.fn (F := Ideal) x y = (fun _ => 1#1)) :
    Cert.Chamfer.Finite x ∧ Cert.Chamfer.Finite y := by
  have h0 := congrFun h ValueIdx.ix0
  dsimp only [Cert.Pre_finite_inputs.fn] at h0
  obtain ⟨hx, hy⟩ := IntOp.andi_eq_one.1 h0
  exact ⟨fun j => real_of_abs_lt_pinf (x j) (Host.reduce_andi_all _ _ _ _ _ hx j),
    fun j => real_of_abs_lt_pinf (y j) (Host.reduce_andi_all _ _ _ _ _ hy j)⟩

end Cert.KernelIdeal.Fin

end
-- ==== Proof.lean ====
/-
  The blockwise nearest-neighbour total against the whole-array one.

  Both programs take two clouds of 4 × 4096 points in three coordinates and return one number: with d(b, n, m) the
  squared distance between point n of the first cloud and point m of the second in batch b, the mean over the batches
  of (the mean over n of min_m d) + (the mean over m of min_n d).

  The blockwise program sweeps a 4 × 4 grid: at point (b, i) it forms the 1024 × 4096 table of block i of batch b
  (the two squared norms plus the inner product of −2x with y), adds the row minima to a first total, keeps for every
  column the minimum over the blocks seen so far of the batch, and at the batch's last block adds the sum of these
  column minima to a second total; the result is the two totals each divided by 16384, added. The whole-array program
  forms the full table (the two squared norms minus twice the inner product), takes the two families of minima, the two
  means over 4096, adds them and takes the mean over the 4 batches.

  On extended reals: the two tables agree wherever every coordinate is a real number (the precondition) since
  (−2x)·y summed is −2 times the sum of x·y; a minimum over 4096 rows is the minimum of the four blocks' minima; a sum
  over the rows is the sum of the four blocks' sums; and dividing by 4096 and then by 4 is dividing by 16384, which
  distributes over the sums because the divisors are positive reals.

  The word-level program and its idealization run (terminate, fault nowhere, leave the clouds unchanged) by the sweep's
  contract at each grid point, proved case by case on the point's place in its batch; the idealization rewrote
  nothing, so there is nothing to preserve.
-/
import proofs.«152712_g89532888252875_cont_sun_m_849_7_alg».proof.Defs
import proofs.«152712_g89532888252875_cont_sun_m_849_7_alg».proof.Proof.K.Sound
import proofs.«152712_g89532888252875_cont_sun_m_849_7_alg».proof.Proof.KV.Run
import proofs.«152712_g89532888252875_cont_sun_m_849_7_alg».proof.Proof.RefTotal
import proofs.«152712_g89532888252875_cont_sun_m_849_7_alg».proof.Proof.Totals
import proofs.«152712_g89532888252875_cont_sun_m_849_7_alg».proof.Proof.FiniteInputs
import Idealize.ShloMosaic.Adequacy
import Idealize.ShloMosaic.Init

noncomputable section

namespace Cert.Proof

open Idealize.ShloMosaic Idealize.SL.Sem

/-- The two idealized programs end with equal results: the blockwise side at the whole-array total of its table, the
    whole-array side at that total of its own table, and the tables agree on finite clouds. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => fun _ => Cert.Chamfer.wholeTotal (Cert.KernelIdeal.Val.dK m c), Cert.KernelIdeal.Val.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2]
  obtain ⟨hx, hy⟩ := Cert.KernelIdeal.Fin.finite_of_pre _ _ (hpre c)
  funext _
  exact congrArg Cert.Chamfer.wholeTotal (Cert.Chamfer.Totals.kerDist_eq_refDist _ _ hx hy).symm

theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  Cert.ReferenceIdeal.RefValue.frame,
  trivial,
  algebraic⟩

end Cert.Proof

end
